-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S192x128 : Shape := ⟨2, ![192, 128]⟩
abbrev S256x128 : Shape := ⟨2, ![256, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S192x128 : S_.BroadcastsInDim S192x128 (![] : Fin 0 → Fin S192x128.rank)
  reducesTo_S192x128_S_d0_1 : S192x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg9 : FVec F S256x128 .f32) (main_arg10 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S192x128 .f32) (main_arg8 : FVec F S128 .f32) (main_arg9 : FVec F S256x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S192x128 .f32 := Host.absf main_arg7
  let main_cst_8 : FVec F S_ .f32 := constant S_ .f32 0x7F800000#32
  let main_v25 : FVec F S192x128 .f32 := broadcastInDim S192x128 ![] bcast_S_S192x128 main_cst_8
  let main_v26 : IVec S192x128 1 := cmpf .olt main_v24 main_v25
  let main_c_9 : IVec S_ 1 := constantI S_ 1 1#1
  let main_v27 : IVec S_ 1 := (fun x v => Host.reduce IntOp.andi x v reducesTo_S192x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128x128 .f32) (main_arg6 : FVec F S128 .f32) (main_arg7 : FVec F S192x128 .f32) (main_arg8 : FVec F S128 .f32) (main_arg9 : FVec F S256x128 .f32) (main_arg10 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S192x128 : Shape := ⟨2, ![192, 128]⟩
abbrev S256x128 : Shape := ⟨2, ![256, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S5000x192 : Shape := ⟨2, ![5000, 192]⟩
abbrev S1700000x128 : Shape := ⟨2, ![1700000, 128]⟩
abbrev S5000x256 : Shape := ⟨2, ![5000, 256]⟩

abbrev nBuf : Space → Nat
  | .hbm => 58
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S192x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S1x128, .f32⟩
  | .hbm, ⟨31, _⟩ => ⟨S1x128, .f32⟩
  | .hbm, ⟨32, _⟩ => ⟨S100000x128, .bf16⟩
  | .hbm, ⟨33, _⟩ => ⟨S100000x128, .bf16⟩
  | .hbm, ⟨34, _⟩ => ⟨S100000, .i32⟩
  | .hbm, ⟨35, _⟩ => ⟨S1x1600000, .i32⟩
  | .hbm, ⟨36, _⟩ => ⟨S1600000, .i32⟩
  | .hbm, ⟨37, _⟩ => ⟨S1700000, .i32⟩
  | .hbm, ⟨38, _⟩ => ⟨S1x1600000, .i32⟩
  | .hbm, ⟨39, _⟩ => ⟨S1600000, .i32⟩
  | .hbm, ⟨40, _⟩ => ⟨S1700000, .i32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .bf16⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S1x128, .f32⟩
  | .hbm, ⟨56, _⟩ => ⟨S1x128, .f32⟩
  | .hbm, ⟨57, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S192x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .bf16⟩
  | .local _ .vmem, ⟨12, _⟩ => ⟨S5000x128, .bf16⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S256x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_1_0 : S2x1600000.Slices ![1, 0] S1x1600000
  shapeCasts_S1x1600000_S1600000 : S1x1600000.ShapeCasts S1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  concatenates_S5000x128_S5000x64_S5000x192_d1 : Shape.Concatenates [S5000x128, S5000x64] S5000x192 1
  inb_S192x128_S192x128_0_0 : ∀ a, (![0, 0] : Fin 2 → Nat) a + S192x128.size a ≤ S192x128.size a
  h_S192x128 : 0 < S192x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  slices_S2x1600000_S1x1600000_0_0 : S2x1600000.Slices ![0, 0] S1x1600000
  bcast_S_S100000x128 : S_.BroadcastsInDim S100000x128 (![] : Fin 0 → Fin S100000x128.rank)
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  scatter_S100000_S1700000x1_S1700000_n_0_0_1_wf : ScatterDims.WF S100000 S1700000x1 S1700000 [] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x192_S192x128_S5000x128_1_0_0_1_n_n_wf : DotDims.WF S5000x192 S192x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192x128.size a ≤ S192x128.size a
  hwx0_6 : ∀ i : grid0.Coords, EltTy.bits .f32 = 32 ∨ (Rect.block (s := S192x128) S192x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .bf16 = 32 ∨ (Rect.block (s := S100000x128) S5000x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .bf16 = 32 ∨ (Rect.block (s := S100000x128) S5000x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x192_S192x128_S5000x128_1_0_0_1_n_n : DotDims S5000x192 S192x128 S5000x128 where
  lhsContracting := [1]
  rhsContracting := [0]
  lhsNonContracting := [0]
  rhsNonContracting := [1]
  lhsBatch := []
  rhsBatch := []
  wf := dot_S5000x192_S192x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S192x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v15_1) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v15_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S192x128 : Shape := ⟨2, ![192, 128]⟩
abbrev S256x128 : Shape := ⟨2, ![256, 128]⟩
abbrev S100000x128 : Shape := ⟨2, ![100000, 128]⟩
abbrev S1x128 : Shape := ⟨2, ![1, 128]⟩
abbrev S_ : Shape := ⟨0, ![]⟩
abbrev S100000x192 : Shape := ⟨2, ![100000, 192]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S100000x256 : Shape := ⟨2, ![100000, 256]⟩

abbrev nBuf : Space → Nat
  | .hbm => 130
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128x128, .f32⟩
  | 6 => ⟨S128, .f32⟩
  | 7 => ⟨S192x128, .f32⟩
  | 8 => ⟨S128, .f32⟩
  | 9 => ⟨S256x128, .f32⟩
  | 10 => ⟨S128, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .i1⟩
  | 18 => ⟨S_, .f32⟩
  | 19 => ⟨S100000x128, .f32⟩
  | 20 => ⟨S100000x128, .i1⟩
  | 21 => ⟨S_, .f32⟩
  | 22 => ⟨S_, .f32⟩
  | 23 => ⟨S100000x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .i1⟩
  | 37 => ⟨S_, .f32⟩
  | 38 => ⟨S100000x128, .f32⟩
  | 39 => ⟨S100000x128, .i1⟩
  | 40 => ⟨S_, .f32⟩
  | 41 => ⟨S_, .f32⟩
  | 42 => ⟨S100000x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S100000x192, .f32⟩
  | 50 => ⟨S100000x128, .f32⟩
  | 51 => ⟨S100000, .i32⟩
  | 52 => ⟨S1x1600000, .i32⟩
  | 53 => ⟨S1600000, .i32⟩
  | 54 => ⟨S1700000, .i32⟩
  | 55 => ⟨S1x1600000, .i32⟩
  | 56 => ⟨S1600000, .i32⟩
  | 57 => ⟨S1700000, .i32⟩
  | 58 => ⟨S_, .f32⟩
  | 59 => ⟨S1700000, .f32⟩
  | 60 => ⟨S_, .f32⟩
  | 61 => ⟨S100000, .f32⟩
  | 62 => ⟨S1700000x1, .i32⟩
  | 63 => ⟨S100000, .f32⟩
  | 64 => ⟨S_, .f32⟩
  | 65 => ⟨S100000, .f32⟩
  | 66 => ⟨S100000, .i1⟩
  | 67 => ⟨S100000, .f32⟩
  | 68 => ⟨S_, .f32⟩
  | 69 => ⟨S_, .f32⟩
  | 70 => ⟨S100000, .f32⟩
  | 71 => ⟨S100000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x1, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S100000x128, .f32⟩
  | 109 => ⟨S100000x128, .f32⟩
  | 110 => ⟨S100000x256, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .i1⟩
  | 118 => ⟨S_, .f32⟩
  | 119 => ⟨S100000x128, .f32⟩
  | 120 => ⟨S100000x128, .i1⟩
  | 121 => ⟨S_, .f32⟩
  | 122 => ⟨S_, .f32⟩
  | 123 => ⟨S100000x128, .f32⟩
  | 124 => ⟨S100000x128, .f32⟩
  | 125 => ⟨S100000x128, .f32⟩
  | 126 => ⟨S_, .f32⟩
  | 127 => ⟨S100000x128, .f32⟩
  | _ => ⟨S100000x64, .f32⟩

abbrev hbmTy0_1 (i : Nat) : BufTy := match i % 128 with
  | 0 => ⟨S100000x128, .f32⟩
  | 1 => ⟨S100000x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_cst_1 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_v4 : Ref sig .tc := ⟨.hbm, 24, rfl⟩
abbrev main_call0_v5 : Ref sig .tc := ⟨.hbm, 25, rfl⟩
abbrev main_call0_cst_2 : Ref sig .tc := ⟨.hbm, 26, rfl⟩
abbrev main_call0_v6 : Ref sig .tc := ⟨.hbm, 27, rfl⟩
abbrev main_call0_v7 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_cst_0 : Ref sig .tc := ⟨.hbm, 37, rfl⟩
abbrev main_call1_v2 : Ref sig .tc := ⟨.hbm, 38, rfl⟩
abbrev main_call1_v3 : Ref sig .tc := ⟨.hbm, 39, rfl⟩
abbrev main_call1_cst_1 : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_v4 : Ref sig .tc := ⟨.hbm, 43, rfl⟩
abbrev main_call1_v5 : Ref sig .tc := ⟨.hbm, 44, rfl⟩
abbrev main_call1_cst_2 : Ref sig .tc := ⟨.hbm, 45, rfl⟩
abbrev main_call1_v6 : Ref sig .tc := ⟨.hbm, 46, rfl⟩
abbrev main_call1_v7 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst : Ref sig .tc := ⟨.hbm, 58, rfl⟩
abbrev main_v19 : Ref sig .tc := ⟨.hbm, 59, rfl⟩
abbrev main_cst_0 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_1 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_2 : Ref sig .tc := ⟨.hbm, 68, rfl⟩
abbrev main_call2_v0 : Ref sig .tc := ⟨.hbm, 69, rfl⟩
abbrev main_call2_v1 : Ref sig .tc := ⟨.hbm, 70, rfl⟩
abbrev main_v26 : Ref sig .tc := ⟨.hbm, 71, rfl⟩
abbrev main_c : Ref sig .tc := ⟨.hbm, 72, rfl⟩
abbrev main_v27 : Ref sig .tc := ⟨.hbm, 73, rfl⟩
abbrev main_v28 : Ref sig .tc := ⟨.hbm, 74, rfl⟩
abbrev main_c_3 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_c_4 : Ref sig .tc := ⟨.hbm, 81, rfl⟩
abbrev main_v34 : Ref sig .tc := ⟨.hbm, 82, rfl⟩
abbrev main_v35 : Ref sig .tc := ⟨.hbm, 83, rfl⟩
abbrev main_c_5 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_c_6 : Ref sig .tc := ⟨.hbm, 91, rfl⟩
abbrev main_v42 : Ref sig .tc := ⟨.hbm, 92, rfl⟩
abbrev main_v43 : Ref sig .tc := ⟨.hbm, 93, rfl⟩
abbrev main_c_7 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_cst_8 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_call3_cst : Ref sig .tc := ⟨.hbm, 115, rfl⟩
abbrev main_call3_v0 : Ref sig .tc := ⟨.hbm, 116, rfl⟩
abbrev main_call3_v1 : Ref sig .tc := ⟨.hbm, 117, rfl⟩
abbrev main_call3_cst_0 : Ref sig .tc := ⟨.hbm, 118, rfl⟩
abbrev main_call3_v2 : Ref sig .tc := ⟨.hbm, 119, rfl⟩
abbrev main_call3_v3 : Ref sig .tc := ⟨.hbm, 120, rfl⟩
abbrev main_call3_cst_1 : Ref sig .tc := ⟨.hbm, 121, rfl⟩
abbrev main_call3_call0_v0 : Ref sig .tc := ⟨.hbm, 122, rfl⟩
abbrev main_call3_call0_v1 : Ref sig .tc := ⟨.hbm, 123, rfl⟩
abbrev main_call3_v4 : Ref sig .tc := ⟨.hbm, 124, rfl⟩
abbrev main_call3_v5 : Ref sig .tc := ⟨.hbm, 125, rfl⟩
abbrev main_call3_cst_2 : Ref sig .tc := ⟨.hbm, 126, rfl⟩
abbrev main_call3_v6 : Ref sig .tc := ⟨.hbm, 127, rfl⟩
abbrev main_call3_v7 : Ref sig .tc := ⟨.hbm, 128, rfl⟩
abbrev main_v63 : Ref sig .tc := ⟨.hbm, 129, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x64_S100000x192_d1 : Shape.Concatenates [S100000x128, S100000x64] S100000x192 1
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  concatenates_S100000x128_S100000x128_S100000x256_d1 : Shape.Concatenates [S100000x128, S100000x128] S100000x256 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  dot_S100000x192_S192x128_S100000x128_1_0_0_1_n_n_wf : DotDims.WF S100000x192 S192x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x256_S256x128_S100000x128_1_0_0_1_n_n_wf : DotDims.WF S100000x256 S256x128 S100000x128 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KRun.lean ====
/-
  The idealized kernel's run with its result array named.

  The program is two tiled regions among stretches of host operations.  Its generated frame certificate follows the
  contents of every buffer from the launch to the return (the contents at the return are called W6 there) and keeps
  of them only that the arguments are unchanged.  Here the same run is read once more, keeping also what the result
  buffer holds at the return.
-/
import proofs.«102481_j71545565216996_2_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; at the return the result buffer holds the contents the
    frame's fold assigns it, and every argument is as launched. -/
theorem run : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Named

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibDense.lean ====
/-
  A dense layer read one entry at a time, at the exact (extended-real) values.

  A dense layer sends a row r of K numbers to the N numbers  (r · W)(q) + b(q),  W a K×N matrix and b a bias of N
  numbers; the rectifier then replaces each by its maximum with zero.  On the vector unit a block of M rows goes
  through the layer at once: the M×K block times W into a zero accumulator, plus the bias — kept as a 1×N array —
  spread over the M rows.  Entry (p, q) of that block is the layer applied to row p of the block, at q: rows do not
  mix.  Stated once for every M, K, N.
-/
import Idealize.ShloMosaic.Lib.ValueIdx
import Idealize.ShloMosaic.Lib.ValueLayout
import Idealize.ShloMosaic.Lib.Pipeline.Value
import Idealize.ShloMosaic.PureOps.Ideal.Laws
import proofs.«102481_j71545565216996_2_alg».proof.Proof.LibRowDot

noncomputable section

open scoped BigOperators

namespace Cert.Dense

open Idealize.ShloMosaic Idealize.ShloMosaic.ValueIdx Cert.RowDot

/-- A dense layer on one row: entry q is (row · W)(q) + b(q). -/
def dense {K N : Nat} (W : (⟨2, ![K, N]⟩ : Shape).Idx → EReal) (b : Fin N → EReal) (row : Fin K → EReal) : Fin N → EReal :=
  fun q => rowDot row W q + b q

/-- The rectifier of a row: each entry's maximum with the number the all-zero f32 word denotes. -/
def relu {N : Nat} (v : Fin N → EReal) : Fin N → EReal := fun q => max (v q) (Ideal.ofBits .f32 0x00000000#32)

/-- A bias kept as a 1×N array, as a function of the column. -/
def biasRow {N : Nat} (b : (⟨2, ![1, N]⟩ : Shape).Idx → EReal) : Fin N → EReal := fun q => b (ix2 (0 : Fin 1) q)

/-- A bias kept as a length-N array, as a function of the column. -/
def biasVec {N : Nat} (b : (⟨1, ![N]⟩ : Shape).Idx → EReal) : Fin N → EReal := fun q => b (ix1 q)

/-- A length-N bias recast as a 1×N array is the same bias. -/
theorem biasRow_shapeCast {N : Nat} (b : (⟨1, ![N]⟩ : Shape).Idx → EReal) (h : (⟨1, ![N]⟩ : Shape).ShapeCasts ⟨2, ![1, N]⟩) :
    biasRow (shapeCast ⟨2, ![1, N]⟩ b h) = biasVec b :=
  funext fun q => shapeCast_a_1a_apply b h 0 q

/-- The vector unit's product of a block of M rows with a recast K×N matrix into zero, at entry (p, q): row p times W. -/
theorem matmul_block_apply {M K N : Nat} {φ₁ φ₂ : FTy} (prec : Option ContractPrecision)
    (a : FVec Ideal (⟨2, ![M, K]⟩ : Shape) φ₁) (w : FVec Ideal (⟨2, ![K, N]⟩ : Shape) φ₂)
    (hw : (⟨2, ![K, N]⟩ : Shape).ShapeCasts ⟨2, ![K, N]⟩) (p : Fin M) (q : Fin N) :
    matmul (DotDims.plain M K N) prec a (shapeCast ⟨2, ![K, N]⟩ w hw)
        (constant (F := Ideal) ⟨2, ![M, N]⟩ .f32 0x00000000#32) (ix2 p q)
      = rowDot (rowOf a p) w q := by
  rw [shapeCast_self]
  exact matmul_plain_zero_apply prec a w (ix2 p q)

/-- The vector unit's layer on a block of M rows, at entry (p, q): the layer applied to row p of the block. -/
theorem dense_block_apply {M K N : Nat} {φ₁ φ₂ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (p : Fin M) (q : Fin N) :
    addf (matmul (DotDims.plain M K N) prec a (shapeCast ⟨2, ![K, N]⟩ w hw)
        (constant (F := Ideal) ⟨2, ![M, N]⟩ .f32 0x00000000#32))
      (broadcastTo ⟨2, ![M, N]⟩ (shapeCast ⟨2, ![1, N]⟩ b hb) hbc) (ix2 p q)
      = dense w (biasRow b) (rowOf a p) q := by
  show matmul (DotDims.plain M K N) prec a (shapeCast ⟨2, ![K, N]⟩ w hw)
        (constant (F := Ideal) ⟨2, ![M, N]⟩ .f32 0x00000000#32) (ix2 p q)
      + broadcastTo ⟨2, ![M, N]⟩ (shapeCast ⟨2, ![1, N]⟩ b hb) hbc (ix2 p q) = _
  rw [matmul_block_apply, broadcastTo_1b_ab_apply, shapeCast_self]
  rfl

/-- The same with the rectifier and a change of float format after it (which keeps every value). -/
theorem relu_dense_block_apply {M K N : Nat} {φ₁ φ₂ ψ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (hψ : ψ.bits < FTy.f32.bits) (p : Fin M) (q : Fin N) :
    (truncf ψ (maximumf (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc))
      (broadcast ⟨2, ![M, N]⟩ (Scalar.ofBits (F := Ideal) .f32 0x00000000#32))) hψ : FVec Ideal ⟨2, ![M, N]⟩ ψ) (ix2 p q)
      = relu (dense w (biasRow b) (rowOf a p)) q := by
  show max (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc) (ix2 p q)) (Ideal.ofBits .f32 0x00000000#32) = _
  rw [dense_block_apply]
  rfl

end Cert.Dense

end
-- ==== Proof.LibNormSum.lean ====
/-
  Scaling a finite sum on the extended reals.

  Multiplication on the extended reals does not distribute over addition in general (`⊤ + ⊥`), but it does
  when the factor is a nonnegative real. Hence a sum accumulated at a destination and then scaled by the
  destination's factor is the sum of the terms each scaled by the factor of its own destination.
-/
import Idealize.ShloMosaic.PureOps.Ideal

noncomputable section

open scoped BigOperators

namespace Cert.NormSum

open Idealize.ShloMosaic

/-- A nonnegative real factor distributes over a finite sum of extended reals. -/
theorem mul_sum_of_nonneg_real {ι : Type*} (a : EReal) (h0 : 0 ≤ a) (ht : a ≠ ⊤) (s : Finset ι) (f : ι → EReal) :
    a * ∑ i ∈ s, f i = ∑ i ∈ s, a * f i := by
  induction s using Finset.cons_induction with
  | empty => simp
  | cons i s hi ih =>
    rw [Finset.sum_cons, Finset.sum_cons, EReal.left_distrib_of_nonneg_of_ne_top h0 ht, ih]

/-- Scaling the accumulated sum by `a(n)` is accumulating terms scaled by `a` at their own destination,
    when every term that lands on `n` has destination factor `a(n)`. -/
theorem normalized_sum_eq {M : Nat} (an : EReal) (h0 : 0 ≤ an) (ht : an ≠ ⊤) (hit : Fin M → Prop)
    [DecidablePred hit] (h ws wd : Fin M → EReal) (hd : ∀ e, hit e → wd e = an) :
    an * (0 + ∑ e : Fin M, if hit e then h e * ws e else 0)
      = 0 + ∑ e : Fin M, if hit e then h e * (ws e * wd e) else 0 := by
  rw [zero_add, zero_add, mul_sum_of_nonneg_real an h0 ht]
  refine Finset.sum_congr rfl fun e _ => ?_
  by_cases he : hit e
  · rw [if_pos he, if_pos he, hd e he, mul_comm an, mul_assoc]
  · rw [if_neg he, if_neg he, mul_zero]

/-- A finite count, accumulated on the extended reals, is a nonnegative real. -/
theorem count_finset_nonneg_real {ι : Type*} (s : Finset ι) (p : ι → Prop) [DecidablePred p] :
    ∃ r : ℝ, 0 ≤ r ∧ (∑ e ∈ s, if p e then (1 : EReal) else 0) = (r : EReal) := by
  induction s using Finset.cons_induction with
  | empty => exact ⟨0, le_rfl, by simp⟩
  | cons i s hi ih =>
    obtain ⟨r, hr0, hr⟩ := ih
    rw [Finset.sum_cons, hr]
    by_cases hp : p i
    · refine ⟨1 + r, by linarith, ?_⟩
      rw [if_pos hp, EReal.coe_add, EReal.coe_one]
    · refine ⟨r, hr0, ?_⟩
      rw [if_neg hp, zero_add]

/-- The number of indices satisfying `p`, accumulated from zero, is a nonnegative real. -/
theorem count_nonneg_real {M : Nat} (p : Fin M → Prop) [DecidablePred p] :
    ∃ r : ℝ, 0 ≤ r ∧ (0 + ∑ e : Fin M, if p e then (1 : EReal) else 0) = (r : EReal) := by
  rw [zero_add]
  exact count_finset_nonneg_real Finset.univ p

/-- The guarded inverse square root of a nonnegative real is a nonnegative real: zero at zero (the guard
    selects the constant), `1 / √r` at a positive `r`. -/
theorem guarded_rsqrt_nonneg_real (r : ℝ) (hr : 0 ≤ r) :
    ∃ r' : ℝ, 0 ≤ r' ∧
      Scalar.select (Ideal.cmp .ogt (r : EReal) 0) (Ideal.rsqrt (r : EReal)) (0 : EReal) = (r' : EReal) := by
  rcases hr.eq_or_lt with h | h
  · subst h
    refine ⟨0, le_rfl, ?_⟩
    have h0 : Ideal.cmp .ogt ((0 : ℝ) : EReal) 0 ≠ 1 := by
      show BitVec.ofBool (decide ((0 : EReal) < ((0 : ℝ) : EReal))) ≠ 1
      rw [EReal.coe_zero, decide_eq_false (lt_irrefl _)]
      decide
    unfold Scalar.select
    rw [if_neg h0, EReal.coe_zero]
  · refine ⟨(Real.sqrt r)⁻¹, inv_nonneg.2 (Real.sqrt_nonneg r), ?_⟩
    have h1 : Ideal.cmp .ogt (r : EReal) 0 = 1 := by
      show BitVec.ofBool (decide ((0 : EReal) < (r : EReal))) = 1
      rw [decide_eq_true (EReal.coe_pos.2 h)]
      rfl
    unfold Scalar.select
    rw [if_pos h1, Ideal.rsqrt_coe, if_neg (not_lt.2 hr), if_neg h.ne']

end Cert.NormSum

end
-- ==== Proof.Spec.lean ====
/-
  A graph-convolution layer with a two-layer perceptron in front and a combining layer behind, read one
  number at a time on the extended reals.

  elu(a) is a for a > 0 and exp(a) − 1 otherwise.  A row x of 64 features goes to
    nf(x) = elu(elu(x·W1 + b1)·W2 + b2)                       (128 numbers)
    xl(x) = [nf(x), x]·Wgc                                     (128 numbers; the bracket is 192 long)
  and, with g the row's graph-aggregated 128 numbers, to
    out = elu([nf(x), g]·Wc + bc).
  The aggregation at node n sums, over the edges e that end at n, the row xl of the edge's source scaled by
  dinv(source)·dinv(n); since dinv(n) is a nonnegative real, it may equally be taken out of the sum.
-/
import Idealize.ShloMosaic.Lib.ValueIdx
import Idealize.ShloMosaic.PureOps.Ideal.Laws
import proofs.«102481_j71545565216996_2_alg».proof.Proof.LibRowDot
import proofs.«102481_j71545565216996_2_alg».proof.Proof.LibDense
import proofs.«102481_j71545565216996_2_alg».proof.Proof.LibNormSum

noncomputable section

open scoped BigOperators

namespace Cert.GCN

open Idealize.ShloMosaic Idealize.ShloMosaic.ValueIdx Cert.RowDot Cert.Dense

/-- The f32 word of 1.0 denotes the real 1. -/
theorem one_f32 : Ideal.ofBits .f32 0x3F800000#32 = 1 := by
  simp [Ideal.ofBits, Ideal.ieee, -EReal.coe_mul]; norm_num

/-- elu of one number: a where a > 0, exp a − 1 elsewhere. -/
def elu1 (a : EReal) : EReal :=
  Scalar.select (Ideal.cmp .ogt a (Ideal.ofBits .f32 0x00000000#32)) a (Ideal.exp a - Ideal.ofBits .f32 0x3F800000#32)

/-- The other spelling of elu: where a > 0 the exponential is taken at 0 instead (and not used), and the
    branch exp(·) − 1 is multiplied by the constant 1. -/
theorem elu1_guarded (a : EReal) :
    Scalar.select (Ideal.cmp .ogt a (Ideal.ofBits .f32 0x00000000#32)) a
      (Ideal.ofBits .f32 0x3F800000#32
        * (Ideal.exp (Scalar.select (Ideal.cmp .ogt a (Ideal.ofBits .f32 0x00000000#32)) (Ideal.ofBits .f32 0x00000000#32) a) - 1))
      = elu1 a := by
  unfold elu1 Scalar.select
  by_cases h : Ideal.cmp .ogt a (Ideal.ofBits .f32 0x00000000#32) = 1
  · rw [if_pos h, if_pos h]
  · rw [if_neg h, if_neg h, if_neg h, one_f32, one_mul]

/-- elu on every entry of a row. -/
def eluRow {N : Nat} (v : Fin N → EReal) : Fin N → EReal := fun q => elu1 (v q)

/-- Two rows laid end to end. -/
def catRow {A B : Nat} (C : Nat) (hC : C = A + B) (u : Fin A → EReal) (v : Fin B → EReal) : Fin C → EReal :=
  fun k => if h : k.val < A then u ⟨k.val, h⟩ else v ⟨k.val - A, by have := k.isLt; omega⟩

/-- The perceptron on one row of features. -/
def nfRow (W1 : (⟨2, ![64, 128]⟩ : Shape).Idx → EReal) (b1 : Fin 128 → EReal)
    (W2 : (⟨2, ![128, 128]⟩ : Shape).Idx → EReal) (b2 : Fin 128 → EReal) (x : Fin 64 → EReal) : Fin 128 → EReal :=
  eluRow (dense W2 b2 (eluRow (dense W1 b1 x)))

/-- The graph layer's linear map on one row: the perceptron's output and the features, end to end, times Wgc. -/
def xlRow (Wgc : (⟨2, ![192, 128]⟩ : Shape).Idx → EReal) (nf : Fin 128 → EReal) (x : Fin 64 → EReal) : Fin 128 → EReal :=
  fun q => rowDot (catRow 192 rfl nf x) Wgc q

/-- The combining layer on one row. -/
def outRow (Wc : (⟨2, ![256, 128]⟩ : Shape).Idx → EReal) (bc : Fin 128 → EReal) (nf g : Fin 128 → EReal) : Fin 128 → EReal :=
  eluRow (dense Wc bc (catRow 256 rfl nf g))

/-- The perceptron on every row of an M×64 array. -/
def nfArr {M : Nat} (W1 : (⟨2, ![64, 128]⟩ : Shape).Idx → EReal) (b1 : Fin 128 → EReal)
    (W2 : (⟨2, ![128, 128]⟩ : Shape).Idx → EReal) (b2 : Fin 128 → EReal)
    (x : (⟨2, ![M, 64]⟩ : Shape).Idx → EReal) : (⟨2, ![M, 128]⟩ : Shape).Idx → EReal :=
  fun i => nfRow W1 b1 W2 b2 (rowOf x (i 0)) (i 1)

/-- The graph layer's linear map on every row. -/
def xlArr {M : Nat} (W1 : (⟨2, ![64, 128]⟩ : Shape).Idx → EReal) (b1 : Fin 128 → EReal)
    (W2 : (⟨2, ![128, 128]⟩ : Shape).Idx → EReal) (b2 : Fin 128 → EReal) (Wgc : (⟨2, ![192, 128]⟩ : Shape).Idx → EReal)
    (x : (⟨2, ![M, 64]⟩ : Shape).Idx → EReal) : (⟨2, ![M, 128]⟩ : Shape).Idx → EReal :=
  fun i => xlRow Wgc (nfRow W1 b1 W2 b2 (rowOf x (i 0))) (rowOf x (i 0)) (i 1)

/-- Taking the destination's factor out of the aggregated sum: the sum over the edges that end at n of
    xl(source)·dinv(source), times dinv(n), is the sum of xl(source)·(dinv(source)·dinv(destination)),
    because every such edge has destination n and dinv(n) is a nonnegative real. -/
theorem agg_scaled {E : Nat} (hit : Fin E → Prop) [DecidablePred hit] (xl ws wd : Fin E → EReal) (dn : EReal)
    (h0 : 0 ≤ dn) (ht : dn ≠ ⊤) (hd : ∀ e, hit e → wd e = dn) :
    (0 + ∑ e : Fin E, if hit e then xl e * ws e else 0) * dn
      = 0 + ∑ e : Fin E, if hit e then xl e * (ws e * wd e) else 0 := by
  rw [mul_comm]
  exact Cert.NormSum.normalized_sum_eq dn h0 ht hit xl ws wd hd

end Cert.GCN

end
-- ==== Proof.LibCatCols.lean ====
/-
  Two arrays with the same number of rows laid side by side, read one entry at a time.

  Joining an M×A array and an M×B array along their columns gives an M×(A+B) array whose entry (p, k) is the left
  array's (p, k) when k < A and the right array's (p, k − A) otherwise.  Stated for every M, A, B and for entries of
  any type.
-/
import Idealize.ShloMosaic.Lib.ValueIdx
import Idealize.ShloMosaic.Lib.Pipeline.Value

namespace Cert.CatCols

open Idealize.ShloMosaic Idealize.ShloMosaic.ValueIdx

variable {α : Type}

/-- Entry (p, k) of the side-by-side join. -/
theorem cat_cols_apply {M A B C : Nat} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, C]⟩ 1) (hC : C = A + B) (p : Fin M) (k : Fin C) :
    concatenate ⟨2, ![M, C]⟩ 1 [⟨⟨2, ![M, A]⟩, x₁⟩, ⟨⟨2, ![M, B]⟩, x₂⟩] h (ix2 p k)
      = if hk : k.val < A then x₁ (ix2 p ⟨k.val, hk⟩) else x₂ (ix2 p ⟨k.val - A, by have := k.isLt; omega⟩) := by
  split
  · next hk =>
    exact concatenate_pair_apply_left 1 x₁ x₂ h (ix2 p k) rfl (ix2 p ⟨k.val, hk⟩) (fun b => by
      match b with
      | ⟨0, _⟩ => rfl
      | ⟨1, _⟩ => rfl)
  · next hk =>
    exact concatenate_pair_apply_right 1 x₁ x₂ h (ix2 p k) rfl rfl (ix2 p ⟨k.val - A, by have := k.isLt; omega⟩) (fun b hb => by
      match b with
      | ⟨0, _⟩ => rfl
      | ⟨1, _⟩ => exact absurd rfl hb)
      (by show (k.val - A) + A = k.val; omega)

end Cert.CatCols
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.KBody.lean ====
/-
  What the two kernel bodies compute, read one entry at a time on the extended reals.

  The first body takes a block of 5000 feature rows through the perceptron (two dense layers with elu, the operands
  rounded to bf16 on the way into each product, which changes no value here) and stores the result; it then lays the
  result and the features side by side, multiplies by Wgc, scales row p by the block's p-th scale factor, and stores
  that.  The second body scales the aggregated block row by row, adds a bias, lays the perceptron's block and this side
  by side, and takes them through the combining layer.  Rows never mix: entry (p, q) of each stored block is the
  row function of row p of the loaded blocks, at q.
-/
import proofs.«102481_j71545565216996_2_alg».proof.Proof.Gen.KernelIdeal.Skeleton
import proofs.«102481_j71545565216996_2_alg».proof.Proof.Spec
import proofs.«102481_j71545565216996_2_alg».proof.Proof.LibCatCols
import proofs.«102481_j71545565216996_2_alg».proof.Proof.LibColumn
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.RowDot Cert.Dense Cert.GCN

/-- elu of every entry, in the vector unit's spelling: the select between y and exp y − 1 on y > 0. -/
def eluV {S : Shape} (y : FVec Ideal S .f32) : FVec Ideal S .f32 :=
  select (cmpf .ogt y (broadcast S (Scalar.ofBits (F := Ideal) .f32 0x00000000#32))) y
    (subf (exp y) (broadcast S (Scalar.ofBits (F := Ideal) .f32 0x3F800000#32)))

theorem eluV_apply {S : Shape} (y : FVec Ideal S .f32) (i : S.Idx) : eluV y i = elu1 (y i) := rfl

/-- The vector unit's product into zero of a block of M rows, under the printed dimension record, at entry (p, q). -/
theorem matmulV_apply {M K N : Nat} {φ₁ φ₂ : FTy} (D : DotDims (⟨2, ![M, K]⟩ : Shape) ⟨2, ![K, N]⟩ ⟨2, ![M, N]⟩)
    (hD : D = DotDims.plain M K N) (a : FVec Ideal (⟨2, ![M, K]⟩ : Shape) φ₁) (w : FVec Ideal (⟨2, ![K, N]⟩ : Shape) φ₂)
    (p : Fin M) (q : Fin N) :
    matmul D none a w (constant (F := Ideal) ⟨2, ![M, N]⟩ .f32 0x00000000#32) (ix2 p q) = rowDot (rowOf a p) w q := by
  subst hD
  exact matmul_plain_zero_apply none a w (ix2 p q)

/-- One dense layer on a block of M rows in the vector unit's spelling: the product into zero plus the 1×128 bias
    spread over the rows. -/
def denseV {M K : Nat} {φ₁ φ₂ : FTy} (a : FVec Ideal (⟨2, ![M, K]⟩ : Shape) φ₁) (w : FVec Ideal (⟨2, ![K, 128]⟩ : Shape) φ₂)
    (b : FVec Ideal (⟨2, ![1, 128]⟩ : Shape) .f32)
    (hb : (⟨2, ![1, 128]⟩ : Shape).ShapeCasts ⟨2, ![1, 128]⟩) (hbc : (⟨2, ![1, 128]⟩ : Shape).Broadcasts ⟨2, ![M, 128]⟩) :
    FVec Ideal (⟨2, ![M, 128]⟩ : Shape) .f32 :=
  addf (matmul (DotDims.plain M K 128) none a w (constant (F := Ideal) ⟨2, ![M, 128]⟩ .f32 0x00000000#32))
    (broadcastTo ⟨2, ![M, 128]⟩ (shapeCast ⟨2, ![1, 128]⟩ b hb) hbc)

/-- Entry (p, q) of the layer: row p of the block through the layer, at q. -/
theorem denseV_apply {M K : Nat} {φ₁ φ₂ : FTy} (a : FVec Ideal (⟨2, ![M, K]⟩ : Shape) φ₁) (w : FVec Ideal (⟨2, ![K, 128]⟩ : Shape) φ₂)
    (b : FVec Ideal (⟨2, ![1, 128]⟩ : Shape) .f32)
    (hb : (⟨2, ![1, 128]⟩ : Shape).ShapeCasts ⟨2, ![1, 128]⟩) (hbc : (⟨2, ![1, 128]⟩ : Shape).Broadcasts ⟨2, ![M, 128]⟩)
    (p : Fin M) (q : Fin 128) :
    denseV a w b hb hbc (ix2 p q) = dense w (biasRow b) (rowOf a p) q := by
  show matmul (DotDims.plain M K 128) none a w (constant (F := Ideal) ⟨2, ![M, 128]⟩ .f32 0x00000000#32) (ix2 p q)
      + broadcastTo ⟨2, ![M, 128]⟩ (shapeCast ⟨2, ![1, 128]⟩ b hb) hbc (ix2 p q) = _
  rw [broadcastTo_1b_ab_apply, shapeCast_self]
  exact congrArg (fun z : EReal => z + b (ix2 (0 : Fin 1) q)) (matmul_plain_zero_apply none a w (ix2 p q))

/-- The perceptron's block is the two layers composed. -/
theorem pay2_eq (v0 : Vec Ideal S5000x64 .f32) (v2 : Vec Ideal S64x128 .f32) (v5 : Vec Ideal S1x128 .f32)
    (v15 : Vec Ideal S128x128 .f32) (v19 : Vec Ideal S1x128 .f32) :
    k0_pay2 v0 v2 v5 v15 v19
      = eluV (denseV (truncf .bf16 (eluV (denseV (truncf .bf16 v0 bitsLt_bf16_f32) (truncf .bf16 v2 bitsLt_bf16_f32) v5
            shapeCasts_S1x128_S1x128 broadcasts_S1x128_S5000x128)) bitsLt_bf16_f32)
          (truncf .bf16 v15 bitsLt_bf16_f32) v19 shapeCasts_S1x128_S1x128 broadcasts_S1x128_S5000x128) := rfl

/-- Entry (p, q) of the perceptron's block. -/
theorem pay2_apply (v0 : Vec Ideal S5000x64 .f32) (v2 : Vec Ideal S64x128 .f32) (v5 : Vec Ideal S1x128 .f32)
    (v15 : Vec Ideal S128x128 .f32) (v19 : Vec Ideal S1x128 .f32) (p : Fin 5000) (q : Fin 128) :
    k0_pay2 v0 v2 v5 v15 v19 (ix2 p q) = nfRow v2 (biasRow v5) v15 (biasRow v19) (rowOf v0 p) q := by
  rw [pay2_eq, eluV_apply, denseV_apply]
  unfold nfRow eluRow
  refine congrArg elu1 ?_
  refine congrArg (fun r : Fin 128 → EReal => dense v15 (biasRow v19) r q) (funext fun k => ?_)
  show eluV (denseV (truncf .bf16 v0 bitsLt_bf16_f32) (truncf .bf16 v2 bitsLt_bf16_f32) v5
      shapeCasts_S1x128_S1x128 broadcasts_S1x128_S5000x128) (ix2 p k) = _
  rw [eluV_apply, denseV_apply]
  rfl

/-- The stored perceptron block (rounded to bf16, which keeps every value). -/
theorem pay3_apply (v0 : Vec Ideal S5000x64 .f32) (v2 : Vec Ideal S64x128 .f32) (v5 : Vec Ideal S1x128 .f32)
    (v15 : Vec Ideal S128x128 .f32) (v19 : Vec Ideal S1x128 .f32) (p : Fin 5000) (q : Fin 128) :
    k0_pay3 v0 v2 v5 v15 v19 (ix2 p q) = nfRow v2 (biasRow v5) v15 (biasRow v19) (rowOf v0 p) q :=
  pay2_apply v0 v2 v5 v15 v19 p q

/-- Entry (p, q) of the graph layer's linear map on the block. -/
theorem pay4_apply (v0 : Vec Ideal S5000x64 .f32) (v2 : Vec Ideal S64x128 .f32) (v5 : Vec Ideal S1x128 .f32)
    (v15 : Vec Ideal S128x128 .f32) (v19 : Vec Ideal S1x128 .f32) (v32 : Vec Ideal S192x128 .f32) (p : Fin 5000) (q : Fin 128) :
    k0_pay4 v0 v2 v5 v15 v19 v32 (ix2 p q)
      = xlRow v32 (nfRow v2 (biasRow v5) v15 (biasRow v19) (rowOf v0 p)) (rowOf v0 p) q := by
  unfold k0_pay4
  refine (matmulV_apply dot_S5000x192_S192x128_S5000x128_1_0_0_1_n_n rfl _ _ p q).trans ?_
  unfold xlRow rowDot rowOf
  refine Finset.sum_congr rfl fun k _ => ?_
  refine congrArg (fun a : EReal => a * v32 (ix2 k q)) ?_
  refine (Cert.CatCols.cat_cols_apply (k0_pay2 v0 v2 v5 v15 v19) v0 concatenates_S5000x128_S5000x64_S5000x192_d1 rfl p k).trans ?_
  unfold catRow
  split
  · next hk => exact pay2_apply v0 v2 v5 v15 v19 p ⟨k.val, hk⟩
  · rfl

/-- Entry (p, q) of the scaled block: the product's entry times the row's scale factor. -/
theorem pay1_apply (v35 : FVec Ideal S5000x128 .f32) (v36 : Vec Ideal S5000x1 .f32) (p : Fin 5000) (q : Fin 128) :
    k0_pay1 v35 v36 (ix2 p q) = v35 (ix2 p q) * v36 (ix2 p (0 : Fin 1)) := by
  show v35 (ix2 p q) * broadcastTo S5000x128 (shapeCast S5000x1 v36 shapeCasts_S5000x1_S5000x1) broadcasts_S5000x1_S5000x128 (ix2 p q) = _
  rw [Cert.Column.broadcastTo_a1_ab_apply, shapeCast_self]

/-- Entry (p, q) of the second body's block: the combining layer on row p of the perceptron's block and row p of the
    aggregated block scaled by the row's factor plus the bias. -/
theorem pay_out_apply (v0 : Vec Ideal S5000x128 .bf16) (v2 : Vec Ideal S5000x128 .f32) (v4 : Vec Ideal S5000x1 .f32)
    (v8 : Vec Ideal S1x128 .f32) (v14 : Vec Ideal S256x128 .f32) (v17 : Vec Ideal S1x128 .f32) (p : Fin 5000) (q : Fin 128) :
    k1_pay1 v0 v2 v4 v8 v14 v17 (ix2 p q)
      = outRow v14 (biasRow v17) (rowOf v0 p) (fun k => v2 (ix2 p k) * v4 (ix2 p (0 : Fin 1)) + biasRow v8 k) q := by
  have e : k1_pay1 v0 v2 v4 v8 v14 v17
      = eluV (denseV (concatenate S5000x256 1 [⟨S5000x128, shapeCast S5000x128 v0 shapeCasts_S5000x128_S5000x128⟩,
            ⟨S5000x128, truncf .bf16 (addf (mulf (shapeCast S5000x128 v2 shapeCasts_S5000x128_S5000x128)
              (broadcastTo S5000x128 (shapeCast S5000x1 v4 shapeCasts_S5000x1_S5000x1) broadcasts_S5000x1_S5000x128))
              (broadcastTo S5000x128 (shapeCast S1x128 v8 shapeCasts_S1x128_S1x128) broadcasts_S1x128_S5000x128)) bitsLt_bf16_f32⟩]
            concatenates_S5000x128_S5000x128_S5000x256_d1)
          (truncf .bf16 v14 bitsLt_bf16_f32) v17 shapeCasts_S1x128_S1x128 broadcasts_S1x128_S5000x128) := rfl
  rw [e, eluV_apply, denseV_apply]
  unfold outRow eluRow
  refine congrArg elu1 ?_
  refine congrArg (fun r : Fin 256 → EReal => dense v14 (biasRow v17) r q) (funext fun k => ?_)
  unfold rowOf
  refine (Cert.CatCols.cat_cols_apply _ _ concatenates_S5000x128_S5000x128_S5000x256_d1 rfl p k).trans ?_
  unfold catRow
  split
  · next hk => rw [shapeCast_self]
  · next hk =>
    show shapeCast S5000x128 v2 shapeCasts_S5000x128_S5000x128 (ix2 p _)
        * broadcastTo S5000x128 (shapeCast S5000x1 v4 shapeCasts_S5000x1_S5000x1) broadcasts_S5000x1_S5000x128 (ix2 p _)
        + broadcastTo S5000x128 (shapeCast S1x128 v8 shapeCasts_S1x128_S1x128) broadcasts_S1x128_S5000x128 (ix2 p _) = _
    rw [shapeCast_self, Cert.Column.broadcastTo_a1_ab_apply, shapeCast_self, broadcastTo_1b_ab_apply, shapeCast_self]
    rfl

end Cert.KernelIdeal.Body

end
-- ==== Proof.KBlocks.lean ====
/-
  From blocks to arrays: what each output array holds when a tiled region ends, as one function of the arrays the
  region found.

  Both regions walk 20 grid points; at point t every row-tiled operand's block is rows 5000·t … 5000·t + 4999 of its
  array (all columns) and every weight or bias operand's block is its whole array.  Each body writes, at entry (p, q)
  of its output block, a function of row p of its input blocks only; so the output array ends holding, at (n, q), that
  function of row n of the input arrays, and the 20 blocks cover every row.
-/
import proofs.«102481_j71545565216996_2_alg».proof.Proof.Gen.KernelIdeal.Frame
import proofs.«102481_j71545565216996_2_alg».proof.Proof.KBody

set_option maxRecDepth 16384

noncomputable section

namespace Cert.KernelIdeal.Blocks

open Cert.KernelIdeal Cert.KernelIdeal.Gen Idealize.ShloMosaic Idealize.ShloMosaic.TcCoe Idealize.ShloMosaic.ValueIdx
open Cert.RowDot Cert.Dense Cert.GCN Cert.KernelIdeal.Body
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row p of point t's block is row 5000·t + p of the array. -/
def rowAt (t : Fin 20) (p : Fin 5000) : Fin 100000 := ⟨t.val * 5000 + p.val, by have := t.isLt; have := p.isLt; omega⟩

/-! ## Region 0 -/

/-- The printed index maps of region 0 over its grid: a row-tiled operand's block index is (t, 0), a weight's or
    bias's is (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem tlt0 (t : Fin cfg0.N) : t.val < 20 := by have := t.isLt; have h : grid0.N = 20 := N_0; exact h ▸ this

/-- The features' block at point t, at (p, k). -/
theorem rd0_0 (c : Dev nD) (t : Fin cfg0.N) (p : Fin 5000) (k : Fin 64) :
    iblk0 V c 0 t (ix2 p k) = V c main_arg0 (ix2 (rowAt ⟨t.val, tlt0 t⟩ p) k) := by
  show V c main_arg0 (((cfg0.win 0).blk t).view.emb (ix2 p k)) = _
  refine congrArg (V c main_arg0) (funext fun a => Fin.ext ?_)
  obtain ⟨e0, e1, -⟩ := idx0 t
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

/-- The scale factors' block at point t, at (p, 0). -/
theorem rd0_1 (c : Dev nD) (t : Fin cfg0.N) (p : Fin 5000) :
    iblk0 V c 1 t (ix2 p (0 : Fin 1)) = V c main_v12 (ix2 (rowAt ⟨t.val, tlt0 t⟩ p) (0 : Fin 1)) := by
  show V c main_v12 (((cfg0.win 1).blk t).view.emb (ix2 p (0 : Fin 1))) = _
  refine congrArg (V c main_v12) (funext fun a => Fin.ext ?_)
  obtain ⟨-, -, e0, e1, -⟩ := idx0 t
  match a with
  | ⟨0, _⟩ => show win0_1.index t (0 : Fin 2) * 5000 + 1 * p.val = t.val * 5000 + p.val; rw [e0]; omega
  | ⟨1, _⟩ => show win0_1.index t (1 : Fin 2) * 1 + 1 * 0 = 0; rw [e1]

/-- A weight's or bias's block is its whole array. -/
theorem rd0_2 (c : Dev nD) (t : Fin cfg0.N) : iblk0 V c 2 t = V c main_arg3 := by
  funext y
  show V c main_arg3 (((cfg0.win 2).blk t).view.emb y) = _
  refine congrArg (V c main_arg3) (funext fun a => Fin.ext ?_)
  obtain ⟨-, -, -, -, e0, e1, -⟩ := idx0 t
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

theorem rd0_3 (c : Dev nD) (t : Fin cfg0.N) : iblk0 V c 3 t = V c main_v13 := by
  funext y
  show V c main_v13 (((cfg0.win 3).blk t).view.emb y) = _
  refine congrArg (V c main_v13) (funext fun a => Fin.ext ?_)
  obtain ⟨-, -, -, -, -, -, e0, e1, -⟩ := idx0 t
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem rd0_4 (c : Dev nD) (t : Fin cfg0.N) : iblk0 V c 4 t = V c main_arg5 := by
  funext y
  show V c main_arg5 (((cfg0.win 4).blk t).view.emb y) = _
  refine congrArg (V c main_arg5) (funext fun a => Fin.ext ?_)
  obtain ⟨-, -, -, -, -, -, -, -, e0, e1, -⟩ := idx0 t
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem rd0_5 (c : Dev nD) (t : Fin cfg0.N) : iblk0 V c 5 t = V c main_v14 := by
  funext y
  show V c main_v14 (((cfg0.win 5).blk t).view.emb y) = _
  refine congrArg (V c main_v14) (funext fun a => Fin.ext ?_)
  obtain ⟨-, -, -, -, -, -, -, -, -, -, e0, e1, -⟩ := idx0 t
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem rd0_6 (c : Dev nD) (t : Fin cfg0.N) : iblk0 V c 6 t = V c main_arg7 := by
  funext y
  show V c main_arg7 (((cfg0.win 6).blk t).view.emb y) = _
  refine congrArg (V c main_arg7) (funext fun a => Fin.ext ?_)
  obtain ⟨-, -, -, -, -, -, -, -, -, -, -, -, e0, e1, -⟩ := idx0 t
  match a with
  | ⟨0, _⟩ => show win0_6.index t (0 : Fin 2) * 192 + 1 * (y 0).val = (y 0).val; rw [e0]; omega
  | ⟨1, _⟩ => show win0_6.index t (1 : Fin 2) * 128 + 1 * (y 1).val = (y 1).val; rw [e1]; omega

/-- Where entry (p, q) of output window 7's block at point t sits in its array. -/
theorem emb0_7 (t : Fin cfg0.N) (p : Fin 5000) (q : Fin 128) :
    ((cfg0.win 7).blk t).view.emb (ix2 p q) = ix2 (rowAt ⟨t.val, tlt0 t⟩ p) q := by
  refine funext fun a => Fin.ext ?_
  obtain ⟨-, -, -, -, -, -, -, -, -, -, -, -, -, -, e0, e1, -⟩ := idx0 t
  match a with
  | ⟨0, _⟩ => show win0_7.index t (0 : Fin 2) * 5000 + 1 * p.val = t.val * 5000 + p.val; rw [e0]; omega
  | ⟨1, _⟩ => show win0_7.index t (1 : Fin 2) * 128 + 1 * q.val = q.val; rw [e1]; omega

theorem emb0_8 (t : Fin cfg0.N) (p : Fin 5000) (q : Fin 128) :
    ((cfg0.win 8).blk t).view.emb (ix2 p q) = ix2 (rowAt ⟨t.val, tlt0 t⟩ p) q := by
  refine funext fun a => Fin.ext ?_
  obtain ⟨-, -, -, -, -, -, -, -, -, -, -, -, -, -, -, -, e0, e1⟩ := idx0 t
  match a with
  | ⟨0, _⟩ => show win0_8.index t (0 : Fin 2) * 5000 + 1 * p.val = t.val * 5000 + p.val; rw [e0]; omega
  | ⟨1, _⟩ => show win0_8.index t (1 : Fin 2) * 128 + 1 * q.val = q.val; rw [e1]; omega

/-- The perceptron's array: at (n, q) the perceptron on row n of the features. -/
def nfOf (c : Dev nD) : S100000x128.Idx → EReal :=
  nfArr (V c main_arg3) (biasRow (V c main_v13)) (V c main_arg5) (biasRow (V c main_v14)) (V c main_arg0)

/-- The scaled linear map's array: at (n, q) the graph layer's linear map on row n, times row n's scale factor. -/
def xsOf (c : Dev nD) : S100000x128.Idx → EReal := fun i =>
  xlArr (V c main_arg3) (biasRow (V c main_v13)) (V c main_arg5) (biasRow (V c main_v14)) (V c main_arg7) (V c main_arg0) i
    * V c main_v12 (ix2 (i 0) (0 : Fin 1))

/-- What point t writes back to the perceptron's array is its block of `nfOf`. -/
theorem flushed0_7 (c : Dev nD) (t : Fin cfg0.N) :
    (dat0 V c).flushed 7 t = ((cfg0.win 7).blk t).view.read (Elt Ideal) (nfOf V c) := by
  show (cfg0.win 7).cut (grid0.coords t) ((dat0 V c).after 7 t) = _
  rw [after0_7]
  unfold out0_7
  rw [View.canon_unit_zero hz]
  simp only [View.ld_unit_zero (S := S5000x64) hz, View.ld_unit_zero (S := S64x128) hz, View.ld_unit_zero (S := S1x128) hz,
    View.ld_unit_zero (S := S128x128) hz]
  funext j
  obtain ⟨p, q, rfl⟩ : ∃ (p : Fin 5000) (q : Fin 128), j = ix2 p q := ⟨j 0, j 1, eq_ix2 j⟩
  show k0_pay3 (iblk0 V c 0 t) (iblk0 V c 2 t) (iblk0 V c 3 t) (iblk0 V c 4 t) (iblk0 V c 5 t) (ix2 p q)
    = nfOf V c (((cfg0.win 7).blk t).view.emb (ix2 p q))
  rw [emb0_7, pay3_apply, rd0_2, rd0_3, rd0_4, rd0_5]
  unfold nfOf nfArr
  refine congrArg (fun r : Fin 64 → EReal => nfRow (V c main_arg3) (biasRow (V c main_v13)) (V c main_arg5) (biasRow (V c main_v14)) r q)
    (funext fun k => ?_)
  exact rd0_0 V c t p k

/-- What point t writes back to the scaled array is its block of `xsOf`. -/
theorem flushed0_8 (c : Dev nD) (t : Fin cfg0.N) :
    (dat0 V c).flushed 8 t = ((cfg0.win 8).blk t).view.read (Elt Ideal) (xsOf V c) := by
  show (cfg0.win 8).cut (grid0.coords t) ((dat0 V c).after 8 t) = _
  rw [after0_8]
  unfold out0_8
  rw [View.canon_unit_zero hz]
  simp only [View.ld_unit_zero (S := S5000x64) hz, View.ld_unit_zero (S := S64x128) hz, View.ld_unit_zero (S := S1x128) hz,
    View.ld_unit_zero (S := S128x128) hz, View.ld_unit_zero (S := S192x128) hz, View.ld_unit_zero (S := S5000x1) hz]
  funext j
  obtain ⟨p, q, rfl⟩ : ∃ (p : Fin 5000) (q : Fin 128), j = ix2 p q := ⟨j 0, j 1, eq_ix2 j⟩
  show k0_pay1 (k0_pay4 (iblk0 V c 0 t) (iblk0 V c 2 t) (iblk0 V c 3 t) (iblk0 V c 4 t) (iblk0 V c 5 t) (iblk0 V c 6 t))
      (iblk0 V c 1 t) (ix2 p q)
    = xsOf V c (((cfg0.win 8).blk t).view.emb (ix2 p q))
  rw [emb0_8, pay1_apply, pay4_apply, rd0_1, rd0_2, rd0_3, rd0_4, rd0_5, rd0_6]
  have hr : rowOf (iblk0 V c 0 t) p = rowOf (V c main_arg0) (rowAt ⟨t.val, tlt0 t⟩ p) := funext fun k => rd0_0 V c t p k
  rw [hr]
  rfl

/-- Membership in point t's block of an output of region 0, by coordinates. -/
theorem mem_blk0_7 (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v15_0).slice (win0_7.rect t)).set ↔ _
  rw [View.set_slice_whole, Rect.mem_set_unit]
  exact Iff.rfl

theorem mem_blk0_8 (t : Fin cfg0.N) (i : S100000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v15_1).slice (win0_8.rect t)).set ↔ _
  rw [View.set_slice_whole, Rect.mem_set_unit]
  exact Iff.rfl

/-- Row n lies in the block of point n / 5000. -/
theorem cover0_7 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : grid0.N = 20 := N_0
  have hlt : (i 0).val / 5000 < grid0.N := by omega
  refine ⟨⟨(i 0).val / 5000, hlt⟩, flush0_7 _, ?_⟩
  rw [mem_blk0_7]
  obtain ⟨-, -, -, -, -, -, -, -, -, -, -, -, -, -, e0, e1, -⟩ := idx0 ⟨(i 0).val / 5000, hlt⟩
  intro a
  match a with
  | ⟨0, _⟩ =>
    show win0_7.index ⟨(i 0).val / 5000, hlt⟩ (0 : Fin 2) * 5000 ≤ (i 0).val ∧ (i 0).val < win0_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, hlt⟩ (1 : Fin 2) * 128 ≤ (i 1).val ∧ (i 1).val < win0_7.index ⟨(i 0).val / 5000, hlt⟩ (1 : Fin 2) * 128 + 128
    rw [e1]; omega

theorem cover0_8 (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  have hN : grid0.N = 20 := N_0
  have hlt : (i 0).val / 5000 < grid0.N := by omega
  refine ⟨⟨(i 0).val / 5000, hlt⟩, flush0_8 _, ?_⟩
  rw [mem_blk0_8]
  obtain ⟨-, -, -, -, -, -, -, -, -, -, -, -, -, -, -, -, e0, e1⟩ := idx0 ⟨(i 0).val / 5000, hlt⟩
  intro a
  match a with
  | ⟨0, _⟩ =>
    show win0_8.index ⟨(i 0).val / 5000, hlt⟩ (0 : Fin 2) * 5000 ≤ (i 0).val ∧ (i 0).val < win0_8.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_8.index ⟨(i 0).val / 5000, hlt⟩ (1 : Fin 2) * 128 ≤ (i 1).val ∧ (i 1).val < win0_8.index ⟨(i 0).val / 5000, hlt⟩ (1 : Fin 2) * 128 + 128
    rw [e1]; omega

/-- When region 0 ends, its first output array is the perceptron of the features, row by row. -/
theorem arr0_7 (c : Dev nD) : (dat0 V c).arrAt 7 cfg0.N = nfOf V c :=
  (dat0 V c).arrAt_eq_of_cover 7 (nfOf V c) (fun t _ => flushed0_7 V c t) cover0_7

/-- … and its second the scaled linear map of the graph layer, row by row. -/
theorem arr0_8 (c : Dev nD) : (dat0 V c).arrAt 8 cfg0.N = xsOf V c :=
  (dat0 V c).arrAt_eq_of_cover 8 (xsOf V c) (fun t _ => flushed0_8 V c t) cover0_8

/-! ## Region 1 -/

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem tlt1 (t : Fin cfg1.N) : t.val < 20 := by have := t.isLt; have h : grid1.N = 20 := N_1; exact h ▸ this

theorem rd1_0 (c : Dev nD) (t : Fin cfg1.N) (p : Fin 5000) (k : Fin 128) :
    iblk1 V c 0 t (ix2 p k) = V c main_v15_0 (ix2 (rowAt ⟨t.val, tlt1 t⟩ p) k) := by
  show V c main_v15_0 (((cfg1.win 0).blk t).view.emb (ix2 p k)) = _
  refine congrArg (V c main_v15_0) (funext fun a => Fin.ext ?_)
  obtain ⟨e0, e1, -⟩ := idx1 t
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

theorem rd1_1 (c : Dev nD) (t : Fin cfg1.N) (p : Fin 5000) (k : Fin 128) :
    iblk1 V c 1 t (ix2 p k) = V c main_v33 (ix2 (rowAt ⟨t.val, tlt1 t⟩ p) k) := by
  show V c main_v33 (((cfg1.win 1).blk t).view.emb (ix2 p k)) = _
  refine congrArg (V c main_v33) (funext fun a => Fin.ext ?_)
  obtain ⟨-, -, e0, e1, -⟩ := idx1 t
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

theorem rd1_2 (c : Dev nD) (t : Fin cfg1.N) (p : Fin 5000) :
    iblk1 V c 2 t (ix2 p (0 : Fin 1)) = V c main_v12 (ix2 (rowAt ⟨t.val, tlt1 t⟩ p) (0 : Fin 1)) := by
  show V c main_v12 (((cfg1.win 2).blk t).view.emb (ix2 p (0 : Fin 1))) = _
  refine congrArg (V c main_v12) (funext fun a => Fin.ext ?_)
  obtain ⟨-, -, -, -, e0, e1, -⟩ := idx1 t
  match a with
  | ⟨0, _⟩ => show win1_2.index t (0 : Fin 2) * 5000 + 1 * p.val = t.val * 5000 + p.val; rw [e0]; omega
  | ⟨1, _⟩ => show win1_2.index t (1 : Fin 2) * 1 + 1 * 0 = 0; rw [e1]

theorem rd1_3 (c : Dev nD) (t : Fin cfg1.N) : iblk1 V c 3 t = V c main_v34 := by
  funext y
  show V c main_v34 (((cfg1.win 3).blk t).view.emb y) = _
  refine congrArg (V c main_v34) (funext fun a => Fin.ext ?_)
  obtain ⟨-, -, -, -, -, -, e0, e1, -⟩ := idx1 t
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem rd1_4 (c : Dev nD) (t : Fin cfg1.N) : iblk1 V c 4 t = V c main_arg9 := by
  funext y
  show V c main_arg9 (((cfg1.win 4).blk t).view.emb y) = _
  refine congrArg (V c main_arg9) (funext fun a => Fin.ext ?_)
  obtain ⟨-, -, -, -, -, -, -, -, e0, e1, -⟩ := idx1 t
  match a with
  | ⟨0, _⟩ => show win1_4.index t (0 : Fin 2) * 256 + 1 * (y 0).val = (y 0).val; rw [e0]; omega
  | ⟨1, _⟩ => show win1_4.index t (1 : Fin 2) * 128 + 1 * (y 1).val = (y 1).val; rw [e1]; omega

theorem rd1_5 (c : Dev nD) (t : Fin cfg1.N) : iblk1 V c 5 t = V c main_v35 := by
  funext y
  show V c main_v35 (((cfg1.win 5).blk t).view.emb y) = _
  refine congrArg (V c main_v35) (funext fun a => Fin.ext ?_)
  obtain ⟨-, -, -, -, -, -, -, -, -, -, e0, e1, -⟩ := idx1 t
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

theorem emb1_6 (t : Fin cfg1.N) (p : Fin 5000) (q : Fin 128) :
    ((cfg1.win 6).blk t).view.emb (ix2 p q) = ix2 (rowAt ⟨t.val, tlt1 t⟩ p) q := by
  refine funext fun a => Fin.ext ?_
  obtain ⟨-, -, -, -, -, -, -, -, -, -, -, -, e0, e1⟩ := idx1 t
  match a with
  | ⟨0, _⟩ => show win1_6.index t (0 : Fin 2) * 5000 + 1 * p.val = t.val * 5000 + p.val; rw [e0]; omega
  | ⟨1, _⟩ => show win1_6.index t (1 : Fin 2) * 128 + 1 * q.val = q.val; rw [e1]; omega

/-- The result array: at (n, q) the combining layer on row n of the perceptron's array and row n of the aggregated
    array scaled by row n's factor plus the bias. -/
def outOf (c : Dev nD) : S100000x128.Idx → EReal := fun i =>
  outRow (V c main_arg9) (biasRow (V c main_v35)) (rowOf (V c main_v15_0) (i 0))
    (fun k => rowOf (V c main_v33) (i 0) k * V c main_v12 (ix2 (i 0) (0 : Fin 1)) + biasRow (V c main_v34) k) (i 1)

theorem flushed1_6 (c : Dev nD) (t : Fin cfg1.N) :
    (dat1 V c).flushed 6 t = ((cfg1.win 6).blk t).view.read (Elt Ideal) (outOf V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S1x128) hz,
    View.ld_unit_zero (S := S256x128) hz]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = outOf V c (((cfg1.win 6).blk t).view.emb (ix2 p q))
  rw [emb1_6, pay_out_apply, rd1_3, rd1_4, rd1_5]
  have hr : rowOf (iblk1 V c 0 t) p = rowOf (V c main_v15_0) (rowAt ⟨t.val, tlt1 t⟩ p) := funext fun k => rd1_0 V c t p k
  have h1 : rowOf (iblk1 V c 1 t) p = rowOf (V c main_v33) (rowAt ⟨t.val, tlt1 t⟩ p) := funext fun k => rd1_1 V c t p k
  have h2 := rd1_2 V c t p
  show outRow (V c main_arg9) (biasRow (V c main_v35)) (rowOf (iblk1 V c 0 t) p)
      (fun k => rowOf (iblk1 V c 1 t) p k * iblk1 V c 2 t (ix2 p (0 : Fin 1)) + biasRow (V c main_v34) k) q = _
  rw [hr, h1, h2]
  rfl

theorem mem_blk1_6 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v36).slice (win1_6.rect t)).set ↔ _
  rw [View.set_slice_whole, Rect.mem_set_unit]
  exact Iff.rfl

theorem cover1_6 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 20 := N_1
  have hlt : (i 0).val / 5000 < grid1.N := by omega
  refine ⟨⟨(i 0).val / 5000, hlt⟩, flush1_6 _, ?_⟩
  rw [mem_blk1_6]
  obtain ⟨-, -, -, -, -, -, -, -, -, -, -, -, e0, e1⟩ := idx1 ⟨(i 0).val / 5000, hlt⟩
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hlt⟩ (1 : Fin 2) * 128 ≤ (i 1).val ∧ (i 1).val < win1_6.index ⟨(i 0).val / 5000, hlt⟩ (1 : Fin 2) * 128 + 128
    rw [e1]; omega

/-- When region 1 ends, its output array is the combining layer, row by row. -/
theorem arr1_6 (c : Dev nD) : (dat1 V c).arrAt 6 cfg1.N = outOf V c :=
  (dat1 V c).arrAt_eq_of_cover 6 (outOf V c) (fun t _ => flushed1_6 V c t) cover1_6

end Cert.KernelIdeal.Blocks

end
-- ==== Proof.KHost.lean ====
/-
  The host side of the idealized kernel's program: what each array holds when a tiled region is entered, as a term of
  the launch arrays.

  Before the first region the host computes, from the edge list, the degree of every node (a scatter-add of ones at
  the destination column, the node's own index appended as a self-loop) and from it the scale factor
  dinv = where(deg > 0, rsqrt deg, 0), kept as a 100000×1 column; the biases are recast as 1×128 rows.  Between the
  regions it gathers the rows of the scaled linear map at the (negative-wrapped) source column and scatter-adds them at
  the destination column.
-/
import proofs.«102481_j71545565216996_2_alg».proof.Proof.Gen.KernelIdeal.Frame
import proofs.«102481_j71545565216996_2_alg».proof.Proof.KBlocks
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo
open Cert.KernelIdeal.Blocks

/-- The destination word of every edge, the nodes' own indices appended. -/
def dstIdx (a1 : IVec S2x1600000 32) : IVec S1700000 32 :=
  concatenate S1700000 0 [⟨S1600000, shapeCast S1600000 (extractStridedSlice S1x1600000 ![1, 0] a1 slices_S2x1600000_S1x1600000_1_0)
    shapeCasts_S1x1600000_S1600000⟩, ⟨S100000, iotaInDim S100000 32 0⟩] concatenates_S1600000_S100000_S1700000_d0

/-- The source word of every edge, the nodes' own indices appended. -/
def srcIdx (a1 : IVec S2x1600000 32) : IVec S1700000 32 :=
  concatenate S1700000 0 [⟨S1600000, shapeCast S1600000 (extractStridedSlice S1x1600000 ![0, 0] a1 slices_S2x1600000_S1x1600000_0_0)
    shapeCasts_S1x1600000_S1600000⟩, ⟨S100000, iotaInDim S100000 32 0⟩] concatenates_S1600000_S100000_S1700000_d0

/-- A negative word wrapped by the number of nodes. -/
def wrapIdx (x : IVec S1700000 32) : IVec S1700000 32 :=
  select (cmpi .slt x (broadcastInDim S1700000 ![] bcast_S_S1700000 (constantI S_ 32 0#32)))
    (addi x (broadcastInDim S1700000 ![] bcast_S_S1700000 (constantI S_ 32 100000#32))) x

/-- The words as a column of start indices. -/
def colIdx (x : IVec S1700000 32) : IVec S1700000x1 32 := broadcastInDim S1700000x1 ![0] bcast_S1700000_S1700000x1_0 x

/-- Every node's degree: ones accumulated at the destination column. -/
def degT (a1 : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (colIdx (dstIdx a1))
    (broadcastInDim S1700000 ![] bcast_S_S1700000 (constant (F := Ideal) S_ .f32 0x3F800000#32))

/-- Every node's scale factor: the inverse square root of the degree where it is positive, zero elsewhere. -/
def dinvT (a1 : IVec S2x1600000 32) : FVec Ideal S100000 .f32 :=
  select (cmpf .ogt (degT a1) (broadcastInDim S100000 ![] bcast_S_S100000 (constant (F := Ideal) S_ .f32 0x00000000#32)))
    (Host.rsqrt (degT a1))
    (broadcastInDim S100000 ![] bcast_S_S100000 (id (constant (F := Ideal) S_ .f32 0x00000000#32)))

variable (m : (ℓ : Loc nD τ sig) → Buf (Elt Ideal) ℓ) (ρ : Dev nD → PrngReg)

/-! ## What region 0 finds -/

theorem V3_arg0 (c : Dev nD) : V3 m ρ c main_arg0 = m ((c : Thread nD τ).loc main_arg0) := by
  show after hostOps0_2 (after hostOps0_1 (after hostOps0 (W0 m ρ c))) (Proc.devRef .tc main_arg0) = _
  after_results_simp
theorem V3_arg1 (c : Dev nD) : V3 m ρ c main_arg1 = m ((c : Thread nD τ).loc main_arg1) := by
  show after hostOps0_2 (after hostOps0_1 (after hostOps0 (W0 m ρ c))) (Proc.devRef .tc main_arg1) = _
  after_results_simp
theorem V3_arg3 (c : Dev nD) : V3 m ρ c main_arg3 = m ((c : Thread nD τ).loc main_arg3) := by
  show after hostOps0_2 (after hostOps0_1 (after hostOps0 (W0 m ρ c))) (Proc.devRef .tc main_arg3) = _
  after_results_simp
theorem V3_arg5 (c : Dev nD) : V3 m ρ c main_arg5 = m ((c : Thread nD τ).loc main_arg5) := by
  show after hostOps0_2 (after hostOps0_1 (after hostOps0 (W0 m ρ c))) (Proc.devRef .tc main_arg5) = _
  after_results_simp
theorem V3_arg7 (c : Dev nD) : V3 m ρ c main_arg7 = m ((c : Thread nD τ).loc main_arg7) := by
  show after hostOps0_2 (after hostOps0_1 (after hostOps0 (W0 m ρ c))) (Proc.devRef .tc main_arg7) = _
  after_results_simp
theorem V3_arg8 (c : Dev nD) : V3 m ρ c main_arg8 = m ((c : Thread nD τ).loc main_arg8) := by
  show after hostOps0_2 (after hostOps0_1 (after hostOps0 (W0 m ρ c))) (Proc.devRef .tc main_arg8) = _
  after_results_simp
theorem V3_arg9 (c : Dev nD) : V3 m ρ c main_arg9 = m ((c : Thread nD τ).loc main_arg9) := by
  show after hostOps0_2 (after hostOps0_1 (after hostOps0 (W0 m ρ c))) (Proc.devRef .tc main_arg9) = _
  after_results_simp
theorem V3_arg10 (c : Dev nD) : V3 m ρ c main_arg10 = m ((c : Thread nD τ).loc main_arg10) := by
  show after hostOps0_2 (after hostOps0_1 (after hostOps0 (W0 m ρ c))) (Proc.devRef .tc main_arg10) = _
  after_results_simp

/-- The first bias as region 0 finds it: the length-128 argument recast as a 1×128 row. -/
theorem V3_v13 (c : Dev nD) :
    V3 m ρ c main_v13 = shapeCast S1x128 (m ((c : Thread nD τ).loc main_arg4)) shapeCasts_S128_S1x128 := by
  show after hostOps0_2 (after hostOps0_1 (after hostOps0 (W0 m ρ c))) (Proc.devRef .tc main_v13) = _
  after_results_simp
  rfl
theorem V3_v14 (c : Dev nD) :
    V3 m ρ c main_v14 = shapeCast S1x128 (m ((c : Thread nD τ).loc main_arg6)) shapeCasts_S128_S1x128 := by
  show after hostOps0_2 (after hostOps0_1 (after hostOps0 (W0 m ρ c))) (Proc.devRef .tc main_v14) = _
  after_results_simp
  rfl

end Cert.KernelIdeal.Host

end
-- ==== Proof.KHostB.lean ====
/-
  The scale-factor column as the first region finds it: the host operations before the region, composed stretch by
  stretch (the degree and its guard, the select of the guarded inverse square root, the recast as a column).
-/
import proofs.«102481_j71545565216996_2_alg».proof.Proof.KHost
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo
open Cert.KernelIdeal.Blocks

variable (m : (ℓ : Loc nD τ sig) → Buf (Elt Ideal) ℓ) (ρ : Dev nD → PrngReg)

attribute [local irreducible] Host.scatterAdd Host.rsqrt concatenate in
set_option maxHeartbeats 1000000 in
/-- After the first stretch the degree buffer holds the degree array of the edge list. -/
theorem h0_v7 (U : Valuation τ sig (Elt Ideal)) :
    after hostOps0 U (Proc.devRef .tc main_v7) = degT (U (Proc.devRef .tc main_arg1)) := by
  unfold degT colIdx dstIdx
  after_results
  try rfl

attribute [local irreducible] Host.scatterAdd Host.rsqrt concatenate in
set_option maxHeartbeats 1000000 in
theorem h0_v9 (U : Valuation τ sig (Elt Ideal)) :
    after hostOps0 U (Proc.devRef .tc main_v9)
      = cmpf .ogt (degT (U (Proc.devRef .tc main_arg1)))
          (broadcastInDim S100000 ![] bcast_S_S100000 (constant (F := Ideal) S_ .f32 0x00000000#32)) := by
  unfold degT colIdx dstIdx
  after_results
  try rfl

attribute [local irreducible] Host.scatterAdd Host.rsqrt concatenate in
set_option maxHeartbeats 1000000 in
theorem h0_v10 (U : Valuation τ sig (Elt Ideal)) :
    after hostOps0 U (Proc.devRef .tc main_v10) = Host.rsqrt (degT (U (Proc.devRef .tc main_arg1))) := by
  unfold degT colIdx dstIdx
  after_results
  try rfl

theorem h0_cst2 (U : Valuation τ sig (Elt Ideal)) :
    after hostOps0 U (Proc.devRef .tc main_cst_2) = constant (F := Ideal) S_ .f32 0x00000000#32 := by
  after_results

/-- After the select's stretch its buffer holds the select of the three buffers it reads. -/
theorem h1_v11 (U : Valuation τ sig (Elt Ideal)) :
    after hostOps0_1 U (Proc.devRef .tc main_v11)
      = select (U (Proc.devRef .tc main_v9)) (U (Proc.devRef .tc main_v10))
          (broadcastInDim S100000 ![] bcast_S_S100000 (id (U (Proc.devRef .tc main_cst_2)))) := by
  after_results
  try rfl

/-- After the recasts' stretch the column buffer holds the selected array recast. -/
theorem h2_v12 (U : Valuation τ sig (Elt Ideal)) :
    after hostOps0_2 U (Proc.devRef .tc main_v12)
      = shapeCast S100000x1 (U (Proc.devRef .tc main_v11)) shapeCasts_S100000_S100000x1 := by
  after_results
  try rfl

/-- The scale factors as region 0 finds them: dinv of the edge list, recast as a 100000×1 column. -/
theorem V3_v12 (c : Dev nD) :
    V3 m ρ c main_v12 = shapeCast S100000x1 (dinvT (m ((c : Thread nD τ).loc main_arg1))) shapeCasts_S100000_S100000x1 := by
  show after hostOps0_2 (after hostOps0_1 (after hostOps0 (W0 m ρ c))) (Proc.devRef .tc main_v12) = _
  rw [h2_v12, h1_v11, h0_v9, h0_v10, h0_cst2]
  rfl

end Cert.KernelIdeal.Host

end
-- ==== Proof.KHostC.lean ====
/-
  What the first region leaves and what the second region finds, for every array but the aggregated one.
-/
import proofs.«102481_j71545565216996_2_alg».proof.Proof.KHost
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo
open Cert.KernelIdeal.Blocks

variable (m : (ℓ : Loc nD τ sig) → Buf (Elt Ideal) ℓ) (ρ : Dev nD → PrngReg)

/-! ## What region 0 leaves -/

theorem W4_v15_0 (c : Dev nD) : W4 m ρ c (Proc.devRef .tc main_v15_0) = nfOf (V3 m ρ) c :=
  (W4_arr m ρ c 7).trans (arr0_7 (V3 m ρ) c)

theorem W4_v15_1 (c : Dev nD) : W4 m ρ c (Proc.devRef .tc main_v15_1) = xsOf (V3 m ρ) c :=
  (W4_arr m ρ c 8).trans (arr0_8 (V3 m ρ) c)

theorem W4_v12 (c : Dev nD) : W4 m ρ c (Proc.devRef .tc main_v12) = V3 m ρ c main_v12 :=
  (W4_arr m ρ c 1).trans (((dat0 (V3 m ρ) c).arrAt_in 1 rfl _).trans (A_eq0 (V3 m ρ) c 1))

theorem W4_arg1 (c : Dev nD) : W4 m ρ c (Proc.devRef .tc main_arg1) = m ((c : Thread nD τ).loc main_arg1) :=
  (W4_of_ne m ρ c main_arg1 (by decide)).trans (V3_arg1 m ρ c)
theorem W4_arg8 (c : Dev nD) : W4 m ρ c (Proc.devRef .tc main_arg8) = m ((c : Thread nD τ).loc main_arg8) :=
  (W4_of_ne m ρ c main_arg8 (by decide)).trans (V3_arg8 m ρ c)
theorem W4_arg9 (c : Dev nD) : W4 m ρ c (Proc.devRef .tc main_arg9) = m ((c : Thread nD τ).loc main_arg9) :=
  (W4_of_ne m ρ c main_arg9 (by decide)).trans (V3_arg9 m ρ c)
theorem W4_arg10 (c : Dev nD) : W4 m ρ c (Proc.devRef .tc main_arg10) = m ((c : Thread nD τ).loc main_arg10) :=
  (W4_of_ne m ρ c main_arg10 (by decide)).trans (V3_arg10 m ρ c)

/-! ## What region 1 finds -/

theorem V5_v15_0 (c : Dev nD) : V5 m ρ c main_v15_0 = nfOf (V3 m ρ) c := by
  show after hostOps1 (W4 m ρ c) (Proc.devRef .tc main_v15_0) = _
  after_results_simp
  exact W4_v15_0 m ρ c

theorem V5_v12 (c : Dev nD) : V5 m ρ c main_v12 = V3 m ρ c main_v12 := by
  show after hostOps1 (W4 m ρ c) (Proc.devRef .tc main_v12) = _
  after_results_simp
  exact W4_v12 m ρ c

theorem V5_arg9 (c : Dev nD) : V5 m ρ c main_arg9 = m ((c : Thread nD τ).loc main_arg9) := by
  show after hostOps1 (W4 m ρ c) (Proc.devRef .tc main_arg9) = _
  after_results_simp
  exact W4_arg9 m ρ c

theorem V5_v34 (c : Dev nD) :
    V5 m ρ c main_v34 = shapeCast S1x128 (m ((c : Thread nD τ).loc main_arg8)) shapeCasts_S128_S1x128 := by
  show after hostOps1 (W4 m ρ c) (Proc.devRef .tc main_v34) = _
  after_results_simp
  rw [W4_arg8]
  rfl

theorem V5_v35 (c : Dev nD) :
    V5 m ρ c main_v35 = shapeCast S1x128 (m ((c : Thread nD τ).loc main_arg10)) shapeCasts_S128_S1x128 := by
  show after hostOps1 (W4 m ρ c) (Proc.devRef .tc main_v35) = _
  after_results_simp
  rw [W4_arg10]
  rfl

end Cert.KernelIdeal.Host

end
-- ==== Proof.KHostD.lean ====
/-
  The aggregated array as the second region finds it, and the result array at the return.
-/
import proofs.«102481_j71545565216996_2_alg».proof.Proof.KHost
import proofs.«102481_j71545565216996_2_alg».proof.Proof.KHostC
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo
open Cert.KernelIdeal.Blocks

variable (m : (ℓ : Loc nD τ sig) → Buf (Elt Ideal) ℓ) (ρ : Dev nD → PrngReg)

attribute [local irreducible] Host.scatterAdd Host.gather concatenate in
set_option maxHeartbeats 4000000 in
/-- After the stretch between the regions the aggregated buffer holds the rows of the scaled array gathered at the
    wrapped source column and accumulated at the destination column. -/
theorem g1_v33 (U : Valuation τ sig (Elt Ideal)) :
    after hostOps1 U (Proc.devRef .tc main_v33)
      = Host.scatterAdd scatter_S100000x128_S1700000x1_S1700000x128_1_0_0_1
          (broadcastInDim S100000x128 ![] bcast_S_S100000x128 (constant (F := Ideal) S_ .f32 0x00000000#32))
          (colIdx (dstIdx (U (Proc.devRef .tc main_arg1))))
          (extf .f32 (Host.gather gather_S100000x128_S1700000x1_S1700000x128_1_0_n_n_0_1_1128 (U (Proc.devRef .tc main_v15_1))
            (colIdx (wrapIdx (srcIdx (U (Proc.devRef .tc main_arg1)))))) bitsLt_bf16_f32) := by
  unfold colIdx dstIdx srcIdx wrapIdx
  after_results
  try rfl

/-- The aggregated array as region 1 finds it. -/
theorem V5_v33 (c : Dev nD) :
    V5 m ρ c main_v33
      = Host.scatterAdd scatter_S100000x128_S1700000x1_S1700000x128_1_0_0_1
          (broadcastInDim S100000x128 ![] bcast_S_S100000x128 (constant (F := Ideal) S_ .f32 0x00000000#32))
          (colIdx (dstIdx (m ((c : Thread nD τ).loc main_arg1))))
          (extf .f32 (Host.gather gather_S100000x128_S1700000x1_S1700000x128_1_0_n_n_0_1_1128 (xsOf (V3 m ρ) c)
            (colIdx (wrapIdx (srcIdx (m ((c : Thread nD τ).loc main_arg1)))))) bitsLt_bf16_f32) := by
  show after hostOps1 (W4 m ρ c) (Proc.devRef .tc main_v33) = _
  rw [g1_v33, W4_v15_1, W4_arg1]

/-- The result array at the return is the combining layer on what region 1 found. -/
theorem W6_v36 (c : Dev nD) : W6 m ρ c (Proc.devRef .tc main_v36) = outOf (V5 m ρ) c :=
  (W6_arr m ρ c 6).trans (arr1_6 (V5 m ρ) c)

end Cert.KernelIdeal.Host

end
-- ==== Proof.Graph.lean ====
/-
  The aggregation over the edge list and the whole layer, as functions of the argument arrays.

  Every edge e carries a destination word and a source word (the list ends with one self-loop per node).  An edge
  ends at node n when its destination word, read signed, is n.  The node whose row an edge's word selects when rows are
  looked up is the word wrapped by the number of nodes when negative, then clamped into 0 … 99999.  The degree of n
  counts the edges that end at n; dinv(n) is the inverse square root of the degree where it is positive and zero
  elsewhere, a nonnegative real.  The layer's result at (n, q) is stated twice — with dinv(n) applied to the
  accumulated sum, and with dinv(source)·dinv(destination) applied to every term — and the two are equal.
-/
import proofs.«102481_j71545565216996_2_alg».proof.Proof.Spec

noncomputable section

open scoped BigOperators

namespace Cert.GCN

open Idealize.ShloMosaic Idealize.ShloMosaic.ValueIdx Cert.RowDot Cert.Dense

/-- A negative word wrapped by the number of nodes. -/
def wrapW (w : BitVec 32) : BitVec 32 := Scalar.select (IntOp.cmpi .slt w 0#32) (IntOp.addi w 100000#32) w

/-- The node a start word selects: read signed, clamped into 0 … 99999. -/
def nodeOf (w : BitVec 32) : Fin 100000 := ⟨min w.toInt.toNat (100000 - 1), by omega⟩

/-- A word that reads as a node's index is not wrapped and selects that node. -/
theorem nodeOf_wrapW_of_eq (w : BitVec 32) (n : Fin 100000) (h : w.toInt = (n.val : ℤ)) : nodeOf (wrapW w) = n := by
  have hn : n.val < 100000 := n.isLt
  have hs : w.slt 0#32 = false := by
    rw [BitVec.slt]
    simp only [BitVec.toInt_zero, decide_eq_false_iff_not, not_lt]
    omega
  have hw : wrapW w = w := by
    unfold wrapW Scalar.select IntOp.cmpi
    simp only [hs]
    rfl
  rw [hw]
  apply Fin.ext
  show min w.toInt.toNat (100000 - 1) = n.val
  rw [h]
  simp only [Int.toNat_natCast]
  omega

section Graph

variable (dI sI : (⟨1, ![1700000]⟩ : Shape).Idx → BitVec 32)

/-- Edge e ends at node n. -/
def hit (e : Fin 1700000) (n : Fin 100000) : Prop := (dI (ix1 e)).toInt = (n.val : ℤ)

instance (e : Fin 1700000) (n : Fin 100000) : Decidable (hit dI e n) := by unfold hit; infer_instance

/-- The node whose row edge e's source word selects. -/
def srcNode (e : Fin 1700000) : Fin 100000 := nodeOf (wrapW (sI (ix1 e)))

/-- The node whose entry edge e's destination word selects. -/
def dstNode (e : Fin 1700000) : Fin 100000 := nodeOf (wrapW (dI (ix1 e)))

theorem dstNode_of_hit (e : Fin 1700000) (n : Fin 100000) (h : hit dI e n) : dstNode dI e = n :=
  nodeOf_wrapW_of_eq _ n h

/-- The degree of node n. -/
def deg (n : Fin 100000) : EReal := 0 + ∑ e : Fin 1700000, if hit dI e n then (1 : EReal) else 0

/-- The scale factor of node n. -/
def dinv (n : Fin 100000) : EReal := Scalar.select (Ideal.cmp .ogt (deg dI n) 0) (Ideal.rsqrt (deg dI n)) 0

theorem dinv_nonneg_real (n : Fin 100000) : 0 ≤ dinv dI n ∧ dinv dI n ≠ ⊤ := by
  obtain ⟨r, hr0, hr⟩ := Cert.NormSum.count_nonneg_real (fun e : Fin 1700000 => hit dI e n)
  obtain ⟨r', hr'0, hr'⟩ := Cert.NormSum.guarded_rsqrt_nonneg_real r hr0
  have e : dinv dI n = (r' : EReal) := by
    unfold dinv deg
    rw [hr, hr']
  rw [e]
  exact ⟨EReal.coe_nonneg.2 hr'0, EReal.coe_ne_top _⟩

variable (feats : (⟨2, ![100000, 64]⟩ : Shape).Idx → EReal)
  (W1 : (⟨2, ![64, 128]⟩ : Shape).Idx → EReal) (b1 : Fin 128 → EReal)
  (W2 : (⟨2, ![128, 128]⟩ : Shape).Idx → EReal) (b2 : Fin 128 → EReal)
  (Wgc : (⟨2, ![192, 128]⟩ : Shape).Idx → EReal) (bgc : Fin 128 → EReal)
  (Wc : (⟨2, ![256, 128]⟩ : Shape).Idx → EReal) (bc : Fin 128 → EReal)

/-- The graph layer's linear map on node r, at column k. -/
def xlAt (r : Fin 100000) (k : Fin 128) : EReal :=
  xlRow Wgc (nfRow W1 b1 W2 b2 (rowOf feats r)) (rowOf feats r) k

/-- The aggregated 128 numbers of node n with the destination's factor applied to the accumulated sum, plus the bias. -/
def gcAfter (n : Fin 100000) : Fin 128 → EReal := fun k =>
  (0 + ∑ e : Fin 1700000, if hit dI e n
      then xlAt feats W1 b1 W2 b2 Wgc (srcNode sI e) k * dinv dI (srcNode sI e) else 0) * dinv dI n + bgc k

/-- The same with both factors applied to every term. -/
def gcEach (n : Fin 100000) : Fin 128 → EReal := fun k =>
  (0 + ∑ e : Fin 1700000, if hit dI e n
      then xlAt feats W1 b1 W2 b2 Wgc (srcNode sI e) k * (dinv dI (srcNode sI e) * dinv dI (dstNode dI e)) else 0) + bgc k

/-- The two are one function: dinv(n) is a nonnegative real, and every edge that ends at n has destination node n. -/
theorem gcAfter_eq_gcEach (n : Fin 100000) :
    gcAfter dI sI feats W1 b1 W2 b2 Wgc bgc n = gcEach dI sI feats W1 b1 W2 b2 Wgc bgc n := by
  funext k
  unfold gcAfter gcEach
  refine congrArg (fun z : EReal => z + bgc k) ?_
  exact agg_scaled (fun e => hit dI e n) (fun e => xlAt feats W1 b1 W2 b2 Wgc (srcNode sI e) k)
    (fun e => dinv dI (srcNode sI e)) (fun e => dinv dI (dstNode dI e)) (dinv dI n)
    (dinv_nonneg_real dI n).1 (dinv_nonneg_real dI n).2
    (fun e he => by rw [dstNode_of_hit dI e n he])

/-- The layer with the destination's factor applied to the accumulated sum. -/
def outScaledAfter : (⟨2, ![100000, 128]⟩ : Shape).Idx → EReal := fun i =>
  outRow Wc bc (nfRow W1 b1 W2 b2 (rowOf feats (i 0))) (gcAfter dI sI feats W1 b1 W2 b2 Wgc bgc (i 0)) (i 1)

/-- The layer with both factors applied to every term. -/
def outScaledEach : (⟨2, ![100000, 128]⟩ : Shape).Idx → EReal := fun i =>
  outRow Wc bc (nfRow W1 b1 W2 b2 (rowOf feats (i 0))) (gcEach dI sI feats W1 b1 W2 b2 Wgc bgc (i 0)) (i 1)

theorem outScaledAfter_eq_outScaledEach :
    outScaledAfter dI sI feats W1 b1 W2 b2 Wgc bgc Wc bc = outScaledEach dI sI feats W1 b1 W2 b2 Wgc bgc Wc bc := by
  funext i
  unfold outScaledAfter outScaledEach
  exact congrArg (fun g : Fin 128 → EReal => outRow Wc bc (nfRow W1 b1 W2 b2 (rowOf feats (i 0))) g (i 1))
    (gcAfter_eq_gcEach dI sI feats W1 b1 W2 b2 Wgc bgc (i 0))

end Graph

end Cert.GCN

end
-- ==== Proof.LibRows.lean ====
/-
  Row-indexed gather and accumulating scatter read at an index.

  A table of rows is gathered, or accumulated into, by a column of start indices (one signed word per
  row of the updates): the dimension numbers are those of `x[idx]` and of `segment_sum` along the
  leading axis. The gather reads the row at the start word, read signed and clamped into range; the
  scatter adds to entry `(n, …)` the updates `(e, …)` whose start word, read signed, is `n`.
-/
import Idealize.ShloMosaic.PureOps.Ideal
import Idealize.ShloMosaic.Lib.ValueIdx

noncomputable section

open scoped BigOperators

namespace Cert.Rows

open Idealize.ShloMosaic Idealize.ShloMosaic.ValueIdx

/-! Facts about axis numbers, decided once at the literal ranks. -/
private theorem fin2_one_ne_zero : (1 : Fin 2) ≠ 0 := by decide
private theorem fin3_one_ne_zero : (1 : Fin 3) ≠ 0 := by decide
private theorem fin3_two_ne_zero : (2 : Fin 3) ≠ 0 := by decide

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Gather of whole rows of a rank-2 table `[N, C]` at a column `[M, 1]` of start indices. -/
abbrev gather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows at `(e, a)`: the table at the row the start word `idx[e, 0]` names, read signed
    and clamped into `[0, N − 1]`, column `a`. -/
theorem gather2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (a : Fin C) :
    Host.gather (gather2 N C M wf) x idx (ix2 e a)
      = x (ix2 (⟨min (idx (ix2 e (0 : Fin 1))).toInt.toNat (N - 1), by omega⟩ : Fin N) a) := by
  unfold Host.gather
  congr 1
  funext ax
  refine Fin.ext ?_
  match ax with
  | ⟨0, _⟩ =>
    show (gather2 N C M wf).start (ix2 e a) idx 0 + (gather2 N C M wf).batchCoord (ix2 e a) 0
      + (gather2 N C M wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather2 N C M wf).startIndexMap from List.mem_singleton.mpr rfl)]
    have hsi : (gather2 N C M wf).siIdx (ix2 e a) ⟨List.idxOf (0 : Fin 2) (gather2 N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gather2 N C M wf).start (ix2 e a) idx 1 + (gather2 N C M wf).batchCoord (ix2 e a) 1
      + (gather2 N C M wf).offCoord (ix2 e a) 1 = _
    rw [GatherDims.batchCoord_eq_zero _ _ _ List.not_mem_nil]
    unfold GatherDims.start
    rw [dif_neg (show (1 : Fin 2) ∉ (gather2 N C M wf).startIndexMap from fun h => fin2_one_ne_zero (List.mem_singleton.mp h))]
    unfold GatherDims.offCoord
    rw [dif_pos (show (1 : Fin 2) ∈ (gather2 N C M wf).sKept from (GatherDims.mem_sKept _ _).2 ⟨fun h => fin2_one_ne_zero (List.mem_singleton.mp h), List.not_mem_nil⟩)]
    simp only [Nat.zero_add, Nat.add_zero]
    rfl

/-- Gather of whole slabs of a rank-3 table `[N, B, C]` at a column `[M, 1]` of start indices. -/
abbrev gather3 (N B C M : Nat)
    (wf : GatherDims.WF ⟨3, ![N, B, C]⟩ ⟨2, ![M, 1]⟩ ⟨3, ![M, B, C]⟩ [1, 2] [0] [] [0] [] 1 ![1, B, C]) :
    GatherDims ⟨3, ![N, B, C]⟩ ⟨2, ![M, 1]⟩ ⟨3, ![M, B, C]⟩ where
  offsetDims := [1, 2]
  collapsedSliceDims := [0]
  operandBatchingDims := []
  startIndicesBatchingDims := []
  startIndexMap := [0]
  indexVectorDim := 1
  sliceSizes := ![1, B, C]
  wf := wf

/-- The gather of slabs at `(e, b, a)`. -/
theorem gather3_apply {α : Type} {N B C M w : Nat} (hN : 0 < N)
    (wf : GatherDims.WF ⟨3, ![N, B, C]⟩ ⟨2, ![M, 1]⟩ ⟨3, ![M, B, C]⟩ [1, 2] [0] [] [0] [] 1 ![1, B, C])
    (x : (⟨3, ![N, B, C]⟩ : Shape).Idx → α) (idx : IVec ⟨2, ![M, 1]⟩ w) (e : Fin M) (b : Fin B) (a : Fin C) :
    Host.gather (gather3 N B C M wf) x idx (ix3 e b a)
      = x (ix3 (⟨min (idx (ix2 e (0 : Fin 1))).toInt.toNat (N - 1), by omega⟩ : Fin N) b a) := by
  unfold Host.gather
  congr 1
  funext ax
  refine Fin.ext ?_
  match ax with
  | ⟨0, _⟩ =>
    show (gather3 N B C M wf).start (ix3 e b a) idx 0 + (gather3 N B C M wf).batchCoord (ix3 e b a) 0
      + (gather3 N B C M wf).offCoord (ix3 e b a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather3 N B C M wf).startIndexMap from List.mem_singleton.mpr rfl)]
    have hsi : (gather3 N B C M wf).siIdx (ix3 e b a) ⟨List.idxOf (0 : Fin 3) (gather3 N B C M wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (gather3 N B C M wf).start (ix3 e b a) idx 1 + (gather3 N B C M wf).batchCoord (ix3 e b a) 1
      + (gather3 N B C M wf).offCoord (ix3 e b a) 1 = _
    rw [GatherDims.batchCoord_eq_zero _ _ _ List.not_mem_nil]
    unfold GatherDims.start
    rw [dif_neg (show (1 : Fin 3) ∉ (gather3 N B C M wf).startIndexMap from
      fun h => fin3_one_ne_zero (List.mem_singleton.mp h))]
    unfold GatherDims.offCoord
    rw [dif_pos (show (1 : Fin 3) ∈ (gather3 N B C M wf).sKept from (GatherDims.mem_sKept _ _).2
      ⟨fun h => fin3_one_ne_zero (List.mem_singleton.mp h), List.not_mem_nil⟩)]
    simp only [Nat.zero_add, Nat.add_zero]
    rfl
  | ⟨2, _⟩ =>
    show (gather3 N B C M wf).start (ix3 e b a) idx 2 + (gather3 N B C M wf).batchCoord (ix3 e b a) 2
      + (gather3 N B C M wf).offCoord (ix3 e b a) 2 = _
    rw [GatherDims.batchCoord_eq_zero _ _ _ List.not_mem_nil]
    unfold GatherDims.start
    rw [dif_neg (show (2 : Fin 3) ∉ (gather3 N B C M wf).startIndexMap from
      fun h => fin3_two_ne_zero (List.mem_singleton.mp h))]
    unfold GatherDims.offCoord
    rw [dif_pos (show (2 : Fin 3) ∈ (gather3 N B C M wf).sKept from (GatherDims.mem_sKept _ _).2
      ⟨fun h => fin3_two_ne_zero (List.mem_singleton.mp h), List.not_mem_nil⟩)]
    simp only [Nat.zero_add, Nat.add_zero]
    rfl

/-- Accumulating scatter of rows `[M, C]` into a rank-2 table `[N, C]` at a column `[M, 1]` of start indices. -/
abbrev scatter2 (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An update lands on index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `(e, c)` lands on `(n, k)` exactly when its start word, read signed, is `n` and `c = k`:
    axis 0 starts at the word and has window coordinate 0 (it is an inserted axis), axis 1 starts at 0 and
    has window coordinate `c`. -/
theorem scatter2_resultIdx {N C M w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (k : Fin C) :
    (scatter2 N C M wf).resultIdx? (ix2 e c) idx = some (ix2 n k)
      ↔ (idx (ix2 e (0 : Fin 1))).toInt = (n.val : ℤ) ∧ c = k := by
  have hs0 : (scatter2 N C M wf).start (ix2 e c) idx (0 : Fin 2) = (idx (ix2 e (0 : Fin 1))).toInt := by
    unfold ScatterDims.start
    rw [dif_pos (show (0 : Fin 2) ∈ (scatter2 N C M wf).scatterDimsToOperandDims from List.mem_singleton.mpr rfl)]
    have hsi : (scatter2 N C M wf).siIdx (ix2 e c) ⟨List.idxOf (0 : Fin 2) (scatter2 N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter2 N C M wf).window (ix2 e c) (0 : Fin 2) = 0 := by
    unfold ScatterDims.window
    rw [dif_neg (fun h => (mem_kept _ _).1 h (List.mem_singleton.mpr rfl))]
  have hs1 : (scatter2 N C M wf).start (ix2 e c) idx (1 : Fin 2) = 0 := by
    unfold ScatterDims.start
    rw [dif_neg (fun h => fin2_one_ne_zero (List.mem_singleton.mp h))]
  have hw1 : (scatter2 N C M wf).window (ix2 e c) (1 : Fin 2) = c.val := by
    unfold ScatterDims.window
    rw [dif_pos (show (1 : Fin 2) ∈ (scatter2 N C M wf).sKept from
      (mem_kept _ _).2 (fun h => fin2_one_ne_zero (List.mem_singleton.mp h)))]
    rfl
  rw [resultIdx?_eq_some_iff]
  constructor
  · intro h
    have h0 := h (0 : Fin 2)
    have h1 := h (1 : Fin 2)
    rw [hs0, hw0] at h0
    rw [hs1, hw1] at h1
    have h0' : (idx (ix2 e (0 : Fin 1))).toInt + ((0 : ℕ) : ℤ) = (n.val : ℤ) := h0
    have h1' : (0 : ℤ) + (c.val : ℤ) = (k.val : ℤ) := h1
    refine ⟨by simpa using h0', Fin.ext ?_⟩
    have : (c.val : ℤ) = (k.val : ℤ) := by simpa using h1'
    exact_mod_cast this
  · rintro ⟨h0, rfl⟩ a
    match a with
    | ⟨0, _⟩ =>
      show (scatter2 N C M wf).start (ix2 e c) idx (0 : Fin 2)
        + ((scatter2 N C M wf).window (ix2 e c) (0 : Fin 2) : ℤ) = (n.val : ℤ)
      rw [hs0, hw0, h0]; simp
    | ⟨1, _⟩ =>
      show (scatter2 N C M wf).start (ix2 e c) idx (1 : Fin 2)
        + ((scatter2 N C M wf).window (ix2 e c) (1 : Fin 2) : ℤ) = (c.val : ℤ)
      rw [hs1, hw1]; simp

/-- The accumulated table at `(n, k)`: the operand there plus the updates `(e, k)` of the rows `e` whose
    start word, read signed, is `n`. -/
theorem scatterAdd2_apply {N C M w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (scatter2 N C M wf) x idx upd (ix2 n k)
      = x (ix2 n k) + ∑ e : Fin M, if (idx (ix2 e (0 : Fin 1))).toInt = (n.val : ℤ) then upd (ix2 e k) else 0 := by
  unfold Ideal.hostScatterAdd
  congr 1
  rw [Finset.sum_filter, sum_idx2]
  refine Finset.sum_congr rfl fun e _ => ?_
  simp only [scatter2_resultIdx]
  by_cases h : (idx (ix2 e (0 : Fin 1))).toInt = (n.val : ℤ)
  · simp [h]
  · simp [h]

/-- Accumulating scatter of slabs `[M, B, C]` into a rank-3 table `[N, B, C]`. -/
abbrev scatter3 (N B C M : Nat)
    (wf : ScatterDims.WF ⟨3, ![N, B, C]⟩ ⟨2, ![M, 1]⟩ ⟨3, ![M, B, C]⟩ [1, 2] [0] [0] 1) :
    ScatterDims ⟨3, ![N, B, C]⟩ ⟨2, ![M, 1]⟩ ⟨3, ![M, B, C]⟩ where
  updateWindowDims := [1, 2]
  insertedWindowDims := [0]
  scatterDimsToOperandDims := [0]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An update `(e, b', c)` lands on `(n, b, k)` exactly when its start word, read signed, is `n`, `c = k`
    and `b' = b`. -/
theorem scatter3_resultIdx {N B C M w : Nat}
    (wf : ScatterDims.WF ⟨3, ![N, B, C]⟩ ⟨2, ![M, 1]⟩ ⟨3, ![M, B, C]⟩ [1, 2] [0] [0] 1)
    (idx : IVec ⟨2, ![M, 1]⟩ w) (e : Fin M) (b' : Fin B) (c : Fin C) (n : Fin N) (b : Fin B) (k : Fin C) :
    (scatter3 N B C M wf).resultIdx? (ix3 e b' c) idx = some (ix3 n b k)
      ↔ (idx (ix2 e (0 : Fin 1))).toInt = (n.val : ℤ) ∧ c = k ∧ b' = b := by
  have hs0 : (scatter3 N B C M wf).start (ix3 e b' c) idx (0 : Fin 3) = (idx (ix2 e (0 : Fin 1))).toInt := by
    unfold ScatterDims.start
    rw [dif_pos (show (0 : Fin 3) ∈ (scatter3 N B C M wf).scatterDimsToOperandDims from List.mem_singleton.mpr rfl)]
    have hsi : (scatter3 N B C M wf).siIdx (ix3 e b' c) ⟨List.idxOf (0 : Fin 3) (scatter3 N B C M wf).scatterDimsToOperandDims,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
  have hw0 : (scatter3 N B C M wf).window (ix3 e b' c) (0 : Fin 3) = 0 := by
    unfold ScatterDims.window
    rw [dif_neg (fun h => (mem_kept _ _).1 h (List.mem_singleton.mpr rfl))]
  have hs1 : (scatter3 N B C M wf).start (ix3 e b' c) idx (1 : Fin 3) = 0 := by
    unfold ScatterDims.start
    rw [dif_neg (fun h => fin3_one_ne_zero (List.mem_singleton.mp h))]
  have hw1 : (scatter3 N B C M wf).window (ix3 e b' c) (1 : Fin 3) = b'.val := by
    unfold ScatterDims.window
    rw [dif_pos (show (1 : Fin 3) ∈ (scatter3 N B C M wf).sKept from
      (mem_kept _ _).2 (fun h => fin3_one_ne_zero (List.mem_singleton.mp h)))]
    rfl
  have hs2 : (scatter3 N B C M wf).start (ix3 e b' c) idx (2 : Fin 3) = 0 := by
    unfold ScatterDims.start
    rw [dif_neg (fun h => fin3_two_ne_zero (List.mem_singleton.mp h))]
  have hw2 : (scatter3 N B C M wf).window (ix3 e b' c) (2 : Fin 3) = c.val := by
    unfold ScatterDims.window
    rw [dif_pos (show (2 : Fin 3) ∈ (scatter3 N B C M wf).sKept from
      (mem_kept _ _).2 (fun h => fin3_two_ne_zero (List.mem_singleton.mp h)))]
    rfl
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    have h0' : (idx (ix2 e (0 : Fin 1))).toInt + ((0 : ℕ) : ℤ) = (n.val : ℤ) := h0
    have h1' : (0 : ℤ) + (b'.val : ℤ) = (b.val : ℤ) := h1
    have h2' : (0 : ℤ) + (c.val : ℤ) = (k.val : ℤ) := h2
    refine ⟨by simpa using h0', Fin.ext ?_, Fin.ext ?_⟩
    · have : (c.val : ℤ) = (k.val : ℤ) := by simpa using h2'
      exact_mod_cast this
    · have : (b'.val : ℤ) = (b.val : ℤ) := by simpa using h1'
      exact_mod_cast this
  · rintro ⟨h0, rfl, rfl⟩ a
    match a with
    | ⟨0, _⟩ =>
      show (scatter3 N B C M wf).start (ix3 e b' c) idx (0 : Fin 3)
        + ((scatter3 N B C M wf).window (ix3 e b' c) (0 : Fin 3) : ℤ) = (n.val : ℤ)
      rw [hs0, hw0, h0]; simp
    | ⟨1, _⟩ =>
      show (scatter3 N B C M wf).start (ix3 e b' c) idx (1 : Fin 3)
        + ((scatter3 N B C M wf).window (ix3 e b' c) (1 : Fin 3) : ℤ) = (b'.val : ℤ)
      rw [hs1, hw1]; simp
    | ⟨2, _⟩ =>
      show (scatter3 N B C M wf).start (ix3 e b' c) idx (2 : Fin 3)
        + ((scatter3 N B C M wf).window (ix3 e b' c) (2 : Fin 3) : ℤ) = (c.val : ℤ)
      rw [hs2, hw2]; simp

/-- The accumulated table at `(n, b, k)`. -/
theorem scatterAdd3_apply {N B C M w : Nat}
    (wf : ScatterDims.WF ⟨3, ![N, B, C]⟩ ⟨2, ![M, 1]⟩ ⟨3, ![M, B, C]⟩ [1, 2] [0] [0] 1)
    (x : (⟨3, ![N, B, C]⟩ : Shape).Idx → EReal) (idx : IVec ⟨2, ![M, 1]⟩ w)
    (upd : (⟨3, ![M, B, C]⟩ : Shape).Idx → EReal) (n : Fin N) (b : Fin B) (k : Fin C) :
    Ideal.hostScatterAdd (scatter3 N B C M wf) x idx upd (ix3 n b k)
      = x (ix3 n b k) + ∑ e : Fin M, if (idx (ix2 e (0 : Fin 1))).toInt = (n.val : ℤ) then upd (ix3 e b k) else 0 := by
  unfold Ideal.hostScatterAdd
  congr 1
  rw [Finset.sum_filter, sum_idx3]
  refine Finset.sum_congr rfl fun e _ => ?_
  simp only [scatter3_resultIdx]
  by_cases h : (idx (ix2 e (0 : Fin 1))).toInt = (n.val : ℤ)
  · simp [h, ite_and]
  · simp [h]

end Cert.Rows

end
-- ==== Proof.LibRows1.lean ====
/-
  Entry-indexed gather and accumulating scatter of a vector, read at an index.

  A vector of `N` entries is gathered at, or accumulated into by, a column of `M` start indices (one signed
  word per entry of the result, respectively of the updates): the dimension numbers are those of `x[idx]`
  and of `segment_sum` on a vector. The gather reads the entry at the start word, read signed and clamped
  into range; the scatter adds to entry `n` the updates `e` whose start word, read signed, is `n`.
-/
import Idealize.ShloMosaic.PureOps.Ideal
import Idealize.ShloMosaic.Lib.ValueIdx

noncomputable section

open scoped BigOperators

namespace Cert.Rows1

open Idealize.ShloMosaic Idealize.ShloMosaic.ValueIdx

/-- An axis is kept exactly when it is not among the removed ones. -/
private theorem kept_iff {s : Shape} (axes : List (Fin s.rank)) (a : Fin s.rank) : a ∈ s.kept axes ↔ a ∉ axes := by
  simp [Shape.kept, List.mem_filter, List.mem_finRange]

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Gather of single entries of a vector `[N]` at a column `[M, 1]` of start indices. -/
abbrev gather1 (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of entries at `e`: the vector at the entry the start word `idx[e, 0]` names, read signed
    and clamped into `[0, N − 1]`. -/
theorem gather1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1 N M wf) x idx (ix1 e)
      = x (ix1 (⟨min (idx (ix2 e (0 : Fin 1))).toInt.toNat (N - 1), by omega⟩ : Fin N)) := by
  unfold Host.gather
  congr 1
  funext ax
  refine Fin.ext ?_
  match ax with
  | ⟨0, _⟩ =>
    show (gather1 N M wf).start (ix1 e) idx 0 + (gather1 N M wf).batchCoord (ix1 e) 0
      + (gather1 N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gather1 N M wf).startIndexMap from List.mem_singleton.mpr rfl)]
    have hsi : (gather1 N M wf).siIdx (ix1 e) ⟨List.idxOf (0 : Fin 1) (gather1 N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- Accumulating scatter of entries `[M]` into a vector `[N]` at a column `[M, 1]` of start indices. -/
abbrev scatter1 (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- An update lands on index `i` exactly when, on every axis, its start plus its window coordinate is
    `i`'s coordinate. -/
private theorem resultIdx?_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `e` lands on `n` exactly when its start word, read signed, is `n`: the one axis starts at the
    word and has window coordinate 0 (it is an inserted axis). -/
theorem scatter1_resultIdx {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (scatter1 N M wf).resultIdx? (ix1 e) idx = some (ix1 n)
      ↔ (idx (ix2 e (0 : Fin 1))).toInt = (n.val : ℤ) := by
  have hs0 : (scatter1 N M wf).start (ix1 e) idx (0 : Fin 1) = (idx (ix2 e (0 : Fin 1))).toInt := by
    unfold ScatterDims.start
    rw [dif_pos (show (0 : Fin 1) ∈ (scatter1 N M wf).scatterDimsToOperandDims from List.mem_singleton.mpr rfl)]
    have hsi : (scatter1 N M wf).siIdx (ix1 e) ⟨List.idxOf (0 : Fin 1) (scatter1 N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter1 N M wf).window (ix1 e) (0 : Fin 1) = 0 := by
    unfold ScatterDims.window
    rw [dif_neg (fun h => (kept_iff _ _).1 h (List.mem_singleton.mpr rfl))]
  rw [resultIdx?_some_iff]
  constructor
  · intro h
    have h0 := h (0 : Fin 1)
    rw [hs0, hw0] at h0
    have h0' : (idx (ix2 e (0 : Fin 1))).toInt + ((0 : ℕ) : ℤ) = (n.val : ℤ) := h0
    simpa using h0'
  · intro h0 a
    match a with
    | ⟨0, _⟩ =>
      show (scatter1 N M wf).start (ix1 e) idx (0 : Fin 1)
        + ((scatter1 N M wf).window (ix1 e) (0 : Fin 1) : ℤ) = (n.val : ℤ)
      rw [hs0, hw0, h0]; simp

/-- The accumulated vector at `n`: the operand there plus the updates `e` whose start word, read signed,
    is `n`. -/
theorem scatterAdd1_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (scatter1 N M wf) x idx upd (ix1 n)
      = x (ix1 n) + ∑ e : Fin M, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [scatter1_resultIdx]

end Cert.Rows1

end
-- ==== Proof.LibGraphSum.lean ====
/-
  Counting and accumulating along a column of start words, on the host, read one entry at a time.

  An accumulating scatter into a zero array sums, at node n, the updates whose start word read signed is n.  With
  every update the constant 1 this counts them (a degree); with rows as updates it adds the rows up.  The guarded
  inverse square root where(d > 0, rsqrt d, 0) is taken entry by entry.  Every statement is for arbitrary extents
  and for any dimension record equal to the standard one.
-/
import Idealize.ShloMosaic.Lib.ValueIdx
import Idealize.ShloMosaic.PureOps.Ideal.Laws
import Idealize.ShloMosaic.Lib.Pipeline.Value
import proofs.«102481_j71545565216996_2_alg».proof.Proof.LibRows
import proofs.«102481_j71545565216996_2_alg».proof.Proof.LibRows1

noncomputable section

open scoped BigOperators

namespace Cert.GraphSum

open Idealize.ShloMosaic Idealize.ShloMosaic.ValueIdx

/-- The f32 word of 1.0 denotes the real 1. -/
theorem ofBits_one_f32 : Ideal.ofBits .f32 0x3F800000#32 = 1 := by
  simp [Ideal.ofBits, Ideal.ieee, -EReal.coe_mul]; norm_num

/-- A rank-0 constant spread over any shape reads the constant's value everywhere. -/
theorem splat_apply {S : Shape} (h : (⟨0, ![]⟩ : Shape).BroadcastsInDim S ![]) (b : BitVec 32) (i : S.Idx) :
    broadcastInDim S ![] h (constant (F := Ideal) ⟨0, ![]⟩ .f32 b) i = Ideal.ofBits .f32 b := rfl

/-- The same through a type-preserving convert. -/
theorem splat_id_apply {S : Shape} (h : (⟨0, ![]⟩ : Shape).BroadcastsInDim S ![]) (b : BitVec 32) (i : S.Idx) :
    broadcastInDim S ![] h (id (constant (F := Ideal) ⟨0, ![]⟩ .f32 b)) i = Ideal.ofBits .f32 b := rfl

/-- The degree: ones accumulated into zeros at a column of start words, at node n. -/
theorem hostCount_apply {N M w : Nat}
    (wf : ScatterDims.WF ⟨1, ![N]⟩ ⟨2, ![M, 1]⟩ ⟨1, ![M]⟩ [] [0] [0] 1)
    (d : ScatterDims (⟨1, ![N]⟩ : Shape) ⟨2, ![M, 1]⟩ ⟨1, ![M]⟩) (hd : d = Cert.Rows1.scatter1 N M wf)
    (h0 : (⟨0, ![]⟩ : Shape).BroadcastsInDim ⟨1, ![N]⟩ ![]) (h1 : (⟨0, ![]⟩ : Shape).BroadcastsInDim ⟨1, ![M]⟩ ![])
    (idx : IVec ⟨2, ![M, 1]⟩ w) (n : Fin N) :
    Host.scatterAdd d (broadcastInDim ⟨1, ![N]⟩ ![] h0 (constant (F := Ideal) ⟨0, ![]⟩ .f32 0x00000000#32)) idx
        (broadcastInDim ⟨1, ![M]⟩ ![] h1 (constant (F := Ideal) ⟨0, ![]⟩ .f32 0x3F800000#32)) (ix1 n)
      = 0 + ∑ e : Fin M, if (idx (ix2 e (0 : Fin 1))).toInt = (n.val : ℤ) then (1 : EReal) else 0 := by
  subst hd
  refine (Cert.Rows1.scatterAdd1_apply wf _ idx _ n).trans ?_
  show Ideal.ofBits .f32 0x00000000#32
      + (∑ e : Fin M, if (idx (ix2 e (0 : Fin 1))).toInt = (n.val : ℤ) then Ideal.ofBits .f32 0x3F800000#32 else 0) = _
  rw [Ideal.ofBits_zero_f32, ofBits_one_f32]

/-- Rows accumulated into zeros at a column of start words, at (n, k). -/
theorem hostSumRows_apply {N C M w : Nat}
    (wf : ScatterDims.WF ⟨2, ![N, C]⟩ ⟨2, ![M, 1]⟩ ⟨2, ![M, C]⟩ [1] [0] [0] 1)
    (d : ScatterDims (⟨2, ![N, C]⟩ : Shape) ⟨2, ![M, 1]⟩ ⟨2, ![M, C]⟩) (hd : d = Cert.Rows.scatter2 N C M wf)
    (h0 : (⟨0, ![]⟩ : Shape).BroadcastsInDim ⟨2, ![N, C]⟩ ![])
    (idx : IVec ⟨2, ![M, 1]⟩ w) (upd : FVec Ideal (⟨2, ![M, C]⟩ : Shape) .f32) (n : Fin N) (k : Fin C) :
    Host.scatterAdd d (broadcastInDim ⟨2, ![N, C]⟩ ![] h0 (constant (F := Ideal) ⟨0, ![]⟩ .f32 0x00000000#32)) idx upd (ix2 n k)
      = 0 + ∑ e : Fin M, if (idx (ix2 e (0 : Fin 1))).toInt = (n.val : ℤ) then upd (ix2 e k) else 0 := by
  subst hd
  refine (Cert.Rows.scatterAdd2_apply wf _ idx upd n k).trans ?_
  show Ideal.ofBits .f32 0x00000000#32 + _ = _
  rw [Ideal.ofBits_zero_f32]

/-- Whole rows gathered at a column of start words, under any record equal to the standard one, at (e, a). -/
theorem hostGatherRows_apply {α : Type} {N C M w : Nat} (hN : 0 < N)
    (wf : GatherDims.WF ⟨2, ![N, C]⟩ ⟨2, ![M, 1]⟩ ⟨2, ![M, C]⟩ [1] [0] [] [0] [] 1 ![1, C])
    (d : GatherDims (⟨2, ![N, C]⟩ : Shape) ⟨2, ![M, 1]⟩ ⟨2, ![M, C]⟩) (hd : d = Cert.Rows.gather2 N C M wf)
    (x : (⟨2, ![N, C]⟩ : Shape).Idx → α) (idx : IVec ⟨2, ![M, 1]⟩ w) (e : Fin M) (a : Fin C) :
    Host.gather d x idx (ix2 e a)
      = x (ix2 (⟨min (idx (ix2 e (0 : Fin 1))).toInt.toNat (N - 1), by omega⟩ : Fin N) a) := by
  subst hd
  exact Cert.Rows.gather2_apply hN wf x idx e a

/-- Single entries gathered at a column of start words, under any record equal to the standard one, at e. -/
theorem hostGatherEntries_apply {α : Type} {N M w : Nat} (hN : 0 < N)
    (wf : GatherDims.WF ⟨1, ![N]⟩ ⟨2, ![M, 1]⟩ ⟨1, ![M]⟩ [] [0] [] [0] [] 1 ![1])
    (d : GatherDims (⟨1, ![N]⟩ : Shape) ⟨2, ![M, 1]⟩ ⟨1, ![M]⟩) (hd : d = Cert.Rows1.gather1 N M wf)
    (x : (⟨1, ![N]⟩ : Shape).Idx → α) (idx : IVec ⟨2, ![M, 1]⟩ w) (e : Fin M) :
    Host.gather d x idx (ix1 e)
      = x (ix1 (⟨min (idx (ix2 e (0 : Fin 1))).toInt.toNat (N - 1), by omega⟩ : Fin N)) := by
  subst hd
  exact Cert.Rows1.gather1_apply hN wf x idx e

/-- The guarded inverse square root, entry by entry. -/
theorem guardedRsqrt_apply {S : Shape} (h : (⟨0, ![]⟩ : Shape).BroadcastsInDim S ![]) (dg : FVec Ideal S .f32) (i : S.Idx) :
    select (cmpf .ogt dg (broadcastInDim S ![] h (constant (F := Ideal) ⟨0, ![]⟩ .f32 0x00000000#32))) (Host.rsqrt dg)
        (broadcastInDim S ![] h (id (constant (F := Ideal) ⟨0, ![]⟩ .f32 0x00000000#32))) i
      = Scalar.select (Ideal.cmp .ogt (dg i) 0) (Ideal.rsqrt (dg i)) 0 := by
  show Scalar.select (Ideal.cmp .ogt (dg i) (Ideal.ofBits .f32 0x00000000#32)) (Ideal.rsqrt (dg i)) (Ideal.ofBits .f32 0x00000000#32) = _
  rw [Ideal.ofBits_zero_f32]

/-- A vector of words kept as a column reads, at (e, 0), word e. -/
theorem column_apply {α : Type} {M : Nat} (h : (⟨1, ![M]⟩ : Shape).BroadcastsInDim ⟨2, ![M, 1]⟩ ![0])
    (x : (⟨1, ![M]⟩ : Shape).Idx → α) (e : Fin M) :
    broadcastInDim ⟨2, ![M, 1]⟩ ![0] h x (ix2 e (0 : Fin 1)) = x (ix1 e) :=
  broadcastInDim_apply ![0] h x (ix2 e (0 : Fin 1)) (ix1 e) (fun a => match a with
    | ⟨0, _⟩ => by
        show e.val = if M = 1 then 0 else e.val
        split
        · have := e.isLt; omega
        · rfl)

end Cert.GraphSum

end
-- ==== Proof.KValue.lean ====
/-
  The idealized kernel's result, read one entry at a time: it is the layer with the destination's factor applied to
  the accumulated sum.

  The scale-factor column holds dinv(n) at (n, 0): the degree is the accumulating scatter of ones read at n, a sum
  over the edges whose destination word is n.  The aggregated array holds, at (n, k), the sum over those edges of the
  scaled linear map's row at the edge's source node: the gather reads the source word signed and clamped, and the
  scaled array holds xl(r, k)·dinv(r) at row r.
-/
import proofs.«102481_j71545565216996_2_alg».proof.Proof.KHost
import proofs.«102481_j71545565216996_2_alg».proof.Proof.KHostB
import proofs.«102481_j71545565216996_2_alg».proof.Proof.KHostC
import proofs.«102481_j71545565216996_2_alg».proof.Proof.KHostD
import proofs.«102481_j71545565216996_2_alg».proof.Proof.Graph
import proofs.«102481_j71545565216996_2_alg».proof.Proof.LibRows
import proofs.«102481_j71545565216996_2_alg».proof.Proof.LibRows1
import proofs.«102481_j71545565216996_2_alg».proof.Proof.LibColumn
import proofs.«102481_j71545565216996_2_alg».proof.Proof.LibGraphSum

set_option maxRecDepth 16384

noncomputable section

open scoped BigOperators

namespace Cert.KernelIdeal.Value

open Cert.KernelIdeal Cert.KernelIdeal.Gen Idealize.ShloMosaic Idealize.ShloMosaic.TcCoe Idealize.ShloMosaic.ValueIdx
open Cert.KernelIdeal.Blocks Cert.KernelIdeal.Host Cert.GCN Cert.RowDot Cert.Dense

/-- The column of start words at (e, 0) is word e. -/
theorem colIdx_apply (x : IVec S1700000 32) (e : Fin 1700000) : colIdx x (ix2 e (0 : Fin 1)) = x (ix1 e) :=
  broadcastInDim_apply ![0] bcast_S1700000_S1700000x1_0 x (ix2 e (0 : Fin 1)) (ix1 e) (fun a => match a with
    | ⟨0, _⟩ => by
        show e.val = if (1700000 : Nat) = 1 then 0 else e.val
        rw [if_neg (by decide)])

/-- The wrapped words, one at a time. -/
theorem wrapIdx_apply (x : IVec S1700000 32) (e : Fin 1700000) : wrapIdx x (ix1 e) = wrapW (x (ix1 e)) := rfl

/-- The degree array at n counts the edges that end at n. -/
theorem degT_apply (a1 : IVec S2x1600000 32) (n : Fin 100000) : degT a1 (ix1 n) = deg (dstIdx a1) n := by
  unfold degT
  refine (Cert.GraphSum.hostCount_apply scatter_S100000_S1700000x1_S1700000_n_0_0_1_wf scatter_S100000_S1700000x1_S1700000_n_0_0_1 rfl
    bcast_S_S100000 bcast_S_S1700000 (colIdx (dstIdx a1)) n).trans ?_
  unfold deg hit
  simp only [colIdx_apply]

/-- The scale-factor array at n is dinv(n). -/
theorem dinvT_apply (a1 : IVec S2x1600000 32) (n : Fin 100000) : dinvT a1 (ix1 n) = dinv (dstIdx a1) n := by
  unfold dinvT
  refine (Cert.GraphSum.guardedRsqrt_apply bcast_S_S100000 (degT a1) (ix1 n)).trans ?_
  rw [degT_apply]
  unfold dinv
  rfl

variable (m : (ℓ : Loc nD τ sig) → Buf (Elt Ideal) ℓ) (ρ : Dev nD → PrngReg)

/-- The scale-factor column as either region finds it, at (n, 0). -/
theorem v12_apply (c : Dev nD) (n : Fin 100000) :
    V3 m ρ c main_v12 (ix2 n (0 : Fin 1)) = dinv (dstIdx (m ((c : Thread nD τ).loc main_arg1))) n := by
  rw [V3_v12, Cert.Column.shapeCast_a_a1_apply]
  exact dinvT_apply _ n

/-- Row n of the perceptron's array. -/
theorem nfOf_row (c : Dev nD) (n : Fin 100000) :
    rowOf (nfOf (V3 m ρ) c) n
      = nfRow (m ((c : Thread nD τ).loc main_arg3)) (biasVec (m ((c : Thread nD τ).loc main_arg4))) (m ((c : Thread nD τ).loc main_arg5)) (biasVec (m ((c : Thread nD τ).loc main_arg6))) (rowOf (m ((c : Thread nD τ).loc main_arg0)) n) := by
  unfold nfOf nfArr
  rw [V3_arg0, V3_arg3, V3_arg5, V3_v13, V3_v14, biasRow_shapeCast, biasRow_shapeCast]
  rfl

/-- The scaled array at (r, k): the graph layer's linear map on node r times dinv(r). -/
theorem xsOf_apply (c : Dev nD) (r : Fin 100000) (k : Fin 128) :
    xsOf (V3 m ρ) c (ix2 r k)
      = xlAt (m ((c : Thread nD τ).loc main_arg0)) (m ((c : Thread nD τ).loc main_arg3)) (biasVec (m ((c : Thread nD τ).loc main_arg4))) (m ((c : Thread nD τ).loc main_arg5)) (biasVec (m ((c : Thread nD τ).loc main_arg6))) (m ((c : Thread nD τ).loc main_arg7)) r k * dinv (dstIdx (m ((c : Thread nD τ).loc main_arg1))) r := by
  unfold xsOf xlArr xlAt
  rw [V3_arg0, V3_arg3, V3_arg5, V3_arg7, V3_v13, V3_v14, biasRow_shapeCast, biasRow_shapeCast]
  exact congrArg (fun z : EReal => _ * z) (v12_apply m ρ c r)

/-- A change of float format keeps every value. -/
theorem extf_ideal_apply {S : Shape} (X : FVec Ideal S .bf16) (h : FTy.bf16.bits < FTy.f32.bits) (i : S.Idx) :
    (extf .f32 X h : FVec Ideal S .f32) i = X i := rfl

/-- The aggregated array at (n, k). -/
theorem v33_apply (c : Dev nD) (n : Fin 100000) (k : Fin 128) :
    rowOf (V5 m ρ c main_v33) n k
      = 0 + ∑ e : Fin 1700000, if hit (dstIdx (m ((c : Thread nD τ).loc main_arg1))) e n
          then xlAt (m ((c : Thread nD τ).loc main_arg0)) (m ((c : Thread nD τ).loc main_arg3)) (biasVec (m ((c : Thread nD τ).loc main_arg4))) (m ((c : Thread nD τ).loc main_arg5)) (biasVec (m ((c : Thread nD τ).loc main_arg6))) (m ((c : Thread nD τ).loc main_arg7)) (srcNode (srcIdx (m ((c : Thread nD τ).loc main_arg1))) e) k
            * dinv (dstIdx (m ((c : Thread nD τ).loc main_arg1))) (srcNode (srcIdx (m ((c : Thread nD τ).loc main_arg1))) e) else 0 := by
  unfold rowOf
  rw [V5_v33]
  refine (Cert.GraphSum.hostSumRows_apply scatter_S100000x128_S1700000x1_S1700000x128_1_0_0_1_wf
    scatter_S100000x128_S1700000x1_S1700000x128_1_0_0_1 rfl bcast_S_S100000x128 _ _ n k).trans ?_
  refine congrArg (fun z : EReal => 0 + z) (Finset.sum_congr rfl fun e _ => ?_)
  unfold hit
  rw [colIdx_apply]
  refine if_congr Iff.rfl ?_ rfl
  refine (extf_ideal_apply _ _ _).trans ?_
  refine (Cert.GraphSum.hostGatherRows_apply (by decide) gather_S100000x128_S1700000x1_S1700000x128_1_0_n_n_0_1_1128_wf
    gather_S100000x128_S1700000x1_S1700000x128_1_0_n_n_0_1_1128 rfl (xsOf (V3 m ρ) c) _ e k).trans ?_
  refine (xsOf_apply m ρ c _ k).trans ?_
  have hr : ∀ r : Fin 100000, r.val = (srcNode (srcIdx (m ((c : Thread nD τ).loc main_arg1))) e).val →
      xlAt (m ((c : Thread nD τ).loc main_arg0)) (m ((c : Thread nD τ).loc main_arg3)) (biasVec (m ((c : Thread nD τ).loc main_arg4))) (m ((c : Thread nD τ).loc main_arg5)) (biasVec (m ((c : Thread nD τ).loc main_arg6))) (m ((c : Thread nD τ).loc main_arg7)) r k * dinv (dstIdx (m ((c : Thread nD τ).loc main_arg1))) r
        = xlAt (m ((c : Thread nD τ).loc main_arg0)) (m ((c : Thread nD τ).loc main_arg3)) (biasVec (m ((c : Thread nD τ).loc main_arg4))) (m ((c : Thread nD τ).loc main_arg5)) (biasVec (m ((c : Thread nD τ).loc main_arg6))) (m ((c : Thread nD τ).loc main_arg7)) (srcNode (srcIdx (m ((c : Thread nD τ).loc main_arg1))) e) k
          * dinv (dstIdx (m ((c : Thread nD τ).loc main_arg1))) (srcNode (srcIdx (m ((c : Thread nD τ).loc main_arg1))) e) := fun r h => by rw [Fin.ext h]
  refine hr _ ?_
  show min (colIdx (wrapIdx (srcIdx (m ((c : Thread nD τ).loc main_arg1)))) (ix2 e (0 : Fin 1))).toInt.toNat (100000 - 1)
    = min (wrapW (srcIdx (m ((c : Thread nD τ).loc main_arg1)) (ix1 e))).toInt.toNat (100000 - 1)
  rw [colIdx_apply, wrapIdx_apply]

/-- The result array of the second region at (n, q), for any contents found. -/
theorem outOf_apply (V : (c : Dev nD) → (b : Ref sig .tc) → Buf (Elt Ideal) ((c : Thread nD τ).loc b)) (c : Dev nD)
    (n : Fin 100000) (q : Fin 128) :
    outOf V c (ix2 n q)
      = outRow (V c main_arg9) (biasRow (V c main_v35)) (rowOf (V c main_v15_0) n)
          (fun k => rowOf (V c main_v33) n k * V c main_v12 (ix2 n (0 : Fin 1)) + biasRow (V c main_v34) k) q := rfl

/-- The layer at (n, q), unfolded once. -/
theorem outScaledAfter_apply (dI sI : (⟨1, ![1700000]⟩ : Shape).Idx → BitVec 32)
    (feats : (⟨2, ![100000, 64]⟩ : Shape).Idx → EReal)
    (W1 : (⟨2, ![64, 128]⟩ : Shape).Idx → EReal) (b1 : Fin 128 → EReal)
    (W2 : (⟨2, ![128, 128]⟩ : Shape).Idx → EReal) (b2 : Fin 128 → EReal)
    (Wgc : (⟨2, ![192, 128]⟩ : Shape).Idx → EReal) (bgc : Fin 128 → EReal)
    (Wc : (⟨2, ![256, 128]⟩ : Shape).Idx → EReal) (bc : Fin 128 → EReal) (n : Fin 100000) (q : Fin 128) :
    outScaledAfter dI sI feats W1 b1 W2 b2 Wgc bgc Wc bc (ix2 n q)
      = outRow Wc bc (nfRow W1 b1 W2 b2 (rowOf feats n)) (gcAfter dI sI feats W1 b1 W2 b2 Wgc bgc n) q := rfl

/-- THE KERNEL'S RESULT ARRAY at the return. -/
theorem result_eq (c : Dev nD) :
    W6 m ρ c (Proc.devRef .tc main_v36)
      = outScaledAfter (dstIdx (m ((c : Thread nD τ).loc main_arg1))) (srcIdx (m ((c : Thread nD τ).loc main_arg1))) (m ((c : Thread nD τ).loc main_arg0)) (m ((c : Thread nD τ).loc main_arg3)) (biasVec (m ((c : Thread nD τ).loc main_arg4))) (m ((c : Thread nD τ).loc main_arg5)) (biasVec (m ((c : Thread nD τ).loc main_arg6)))
          (m ((c : Thread nD τ).loc main_arg7)) (biasVec (m ((c : Thread nD τ).loc main_arg8))) (m ((c : Thread nD τ).loc main_arg9)) (biasVec (m ((c : Thread nD τ).loc main_arg10))) := by
  rw [W6_v36]
  funext i
  obtain ⟨n, q, rfl⟩ : ∃ (n : Fin 100000) (q : Fin 128), i = ix2 n q := ⟨i 0, i 1, eq_ix2 i⟩
  refine (outOf_apply (V5 m ρ) c n q).trans ?_
  refine Eq.trans ?_ (outScaledAfter_apply _ _ _ _ _ _ _ _ _ _ _ n q).symm
  rw [V5_arg9, V5_v35, V5_v15_0, V5_v34, V5_v12]
  rw [biasRow_shapeCast, biasRow_shapeCast, nfOf_row, v12_apply]
  have hk : ∀ k : Fin 128,
      rowOf (V5 m ρ c main_v33) n k * dinv (dstIdx (m ((c : Thread nD τ).loc main_arg1))) n + biasVec (m ((c : Thread nD τ).loc main_arg8)) k
        = gcAfter (dstIdx (m ((c : Thread nD τ).loc main_arg1))) (srcIdx (m ((c : Thread nD τ).loc main_arg1))) (m ((c : Thread nD τ).loc main_arg0)) (m ((c : Thread nD τ).loc main_arg3)) (biasVec (m ((c : Thread nD τ).loc main_arg4))) (m ((c : Thread nD τ).loc main_arg5)) (biasVec (m ((c : Thread nD τ).loc main_arg6))) (m ((c : Thread nD τ).loc main_arg7)) (biasVec (m ((c : Thread nD τ).loc main_arg8))) n k :=
    fun k => by unfold gcAfter; rw [v33_apply]
  exact congrArg (fun g : Fin 128 → EReal =>
      outRow (m ((c : Thread nD τ).loc main_arg9)) (biasVec (m ((c : Thread nD τ).loc main_arg10))) (nfRow (m ((c : Thread nD τ).loc main_arg3)) (biasVec (m ((c : Thread nD τ).loc main_arg4))) (m ((c : Thread nD τ).loc main_arg5)) (biasVec (m ((c : Thread nD τ).loc main_arg6))) (rowOf (m ((c : Thread nD τ).loc main_arg0)) n)) g q)
    (funext hk)

end Cert.KernelIdeal.Value

end
-- ==== Proof.RefRun.lean ====
/-
  The reference program's run read back as a term.

  The reference is a straight line of host tensor operations with no kernel: two dense layers with an
  exponential-linear activation give the node features; these, joined with the input, are multiplied by the
  convolution weight; the degree of every node is counted by an accumulating scatter of ones at the destination
  column (each node also its own neighbour), its reciprocal square root taken where positive; the messages — rows
  gathered at the source column scaled by the two ends' normalizers — are accumulated at the destination column;
  the bias is added, the result joined with the node features, and a last dense layer with the same activation
  gives the output. The activation and the three masked choices are functions of the module called in place: a
  call runs the callee's operations on the call's own buffers, so the program is the list of all operations in
  order with every call replaced by its callee's lines.

  This module states that list, proves the program equal to the list run in order, and reads the contents of the
  result buffer after the run as a closed term of the argument arrays, stage by stage.
-/
import proofs.«102481_j71545565216996_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in program order, every call replaced by its callee's lines over the call's own buffers:
    an activation call is fifteen (zero, its broadcast and the comparison with it, twice; a third zero; the first
    masked choice's three: the zero converted, broadcast, chosen where the argument is positive and the argument
    elsewhere; the exponential minus one of that; one, its broadcast, their product; the second masked choice:
    the argument where positive and the product elsewhere), the masked reciprocal square root's call is three. -/
abbrev ops : List (HloOp τ sig (Elt F)) :=
  [ StableHlo.binary main_arg0 main_arg3 main_v0 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg4 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S100000x128 ![0, 1] bcast_S1x128_S100000x128_0_1 : (⟨S1x128, .f32⟩ : BufTy).Contents (Elt F) → (⟨S100000x128, .f32⟩ : BufTy).Contents (Elt F)),
    StableHlo.binary main_v0 main_v2 main_v3 (addf : (⟨S100000x128, .f32⟩ : BufTy).Contents (Elt F) → (⟨S100000x128, .f32⟩ : BufTy).Contents (Elt F) → (⟨S100000x128, .f32⟩ : BufTy).Contents (Elt F)),
    -- the activation of the first layer (%4)
    StableHlo.TRef.nullary main_call0.cst (constant S_ .f32 0x00000000#32),
    StableHlo.TRef.unary main_call0.cst main_call0.v0 (broadcastInDim S100000x128 ![] bcast_S_S100000x128),
    StableHlo.TRef.binary (.of main_v3) main_call0.v0 main_call0.v1 (cmpf .ogt),
    StableHlo.TRef.nullary main_call0.cst_0 (constant S_ .f32 0x00000000#32),
    StableHlo.TRef.unary main_call0.cst_0 main_call0.v2 (broadcastInDim S100000x128 ![] bcast_S_S100000x128),
    StableHlo.TRef.binary (.of main_v3) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x128 ![] bcast_S_S100000x128),
    StableHlo.TRef.ternary main_call0.v3 main_call0.call0.v1 (.of main_v3) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x128 ![] bcast_S_S100000x128),
    StableHlo.TRef.binary main_call0.v6 main_call0.v5 main_call0.v7 mulf,
    StableHlo.TRef.ternary main_call0.v1 (.of main_v3) main_call0.v7 main_call0.call1.v0 select,
    StableHlo.binary main_v4 main_arg5 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S100000x128 ![0, 1] bcast_S1x128_S100000x128_0_1 : (⟨S1x128, .f32⟩ : BufTy).Contents (Elt F) → (⟨S100000x128, .f32⟩ : BufTy).Contents (Elt F)),
    StableHlo.binary main_v5 main_v7 main_v8 (addf : (⟨S100000x128, .f32⟩ : BufTy).Contents (Elt F) → (⟨S100000x128, .f32⟩ : BufTy).Contents (Elt F) → (⟨S100000x128, .f32⟩ : BufTy).Contents (Elt F)),
    -- the activation of the second layer (%9)
    StableHlo.TRef.nullary main_call1.cst (constant S_ .f32 0x00000000#32),
    StableHlo.TRef.unary main_call1.cst main_call1.v0 (broadcastInDim S100000x128 ![] bcast_S_S100000x128),
    StableHlo.TRef.binary (.of main_v8) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v8) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v8) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v8) main_call1.v7 main_call1.call1.v0 select,
    StableHlo.binary main_v9 main_arg0 main_v10 ((fun a b => concatenate S100000x192 1 [⟨S100000x128, a⟩, ⟨S100000x64, b⟩] concatenates_S100000x128_S100000x64_S100000x192_d1) : (⟨S100000x128, .f32⟩ : BufTy).Contents (Elt F) → (⟨S100000x64, .f32⟩ : BufTy).Contents (Elt F) → (⟨S100000x192, .f32⟩ : BufTy).Contents (Elt F)),
    StableHlo.binary main_v10 main_arg7 main_v11 ((fun l r => Host.dotGeneral dot_S100000x192_S192x128_S100000x128_1_0_0_1_n_n none l r) : (⟨S100000x192, .f32⟩ : BufTy).Contents (Elt F) → (⟨S192x128, .f32⟩ : BufTy).Contents (Elt F) → (⟨S100000x128, .f32⟩ : BufTy).Contents (Elt F)),
    StableHlo.nullary main_v12 (iotaInDim S100000 32 0),
    StableHlo.unary main_arg1 main_v13 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v13 main_v14 rfl shapeCasts_S1x1600000_S1600000,
    StableHlo.binary main_v14 main_v12 main_v15 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v16 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v16 main_v17 rfl shapeCasts_S1x1600000_S1600000,
    StableHlo.binary main_v17 main_v12 main_v18 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v19 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v20 (broadcastInDim S100000 ![] bcast_S_S100000 : (⟨S_, .f32⟩ : BufTy).Contents (Elt F) → (⟨S100000, .f32⟩ : BufTy).Contents (Elt F)),
    StableHlo.unary main_v18 main_v21 (broadcastInDim S1700000x1 ![0] bcast_S1700000_S1700000x1_0 : (⟨S1700000, .i32⟩ : BufTy).Contents (Elt F) → (⟨S1700000x1, .i32⟩ : BufTy).Contents (Elt F)),
    StableHlo.ternary main_v20 main_v21 main_v19 main_v22 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v23 (broadcastInDim S100000 ![] bcast_S_S100000 : (⟨S_, .f32⟩ : BufTy).Contents (Elt F) → (⟨S100000, .f32⟩ : BufTy).Contents (Elt F)),
    StableHlo.binary main_v22 main_v23 main_v24 (cmpf .ogt : (⟨S100000, .f32⟩ : BufTy).Contents (Elt F) → (⟨S100000, .f32⟩ : BufTy).Contents (Elt F) → (⟨S100000, .i1⟩ : BufTy).Contents (Elt F)),
    StableHlo.unary main_v22 main_v25 (Host.rsqrt : (⟨S100000, .f32⟩ : BufTy).Contents (Elt F) → (⟨S100000, .f32⟩ : BufTy).Contents (Elt F)),
    StableHlo.nullary main_cst_2 (constant S_ .f32 0x00000000#32),
    -- the masked reciprocal square root (%26)
    StableHlo.TRef.unary (.of main_cst_2) main_call2.v0 id,
    StableHlo.TRef.unary main_call2.v0 main_call2.v1 (broadcastInDim S100000 ![] bcast_S_S100000),
    StableHlo.TRef.ternary (.of main_v24) (.of main_v25) main_call2.v1 main_call2.v2 select,
    StableHlo.nullary main_c (constantI S_ 32 0#32),
    StableHlo.unary main_c main_v27 (broadcastInDim S1700000 ![] bcast_S_S1700000 : (⟨S_, .i32⟩ : BufTy).Contents (Elt F) → (⟨S1700000, .i32⟩ : BufTy).Contents (Elt F)),
    StableHlo.binary main_v15 main_v27 main_v28 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v29 (broadcastInDim S1700000 ![] bcast_S_S1700000 : (⟨S_, .i32⟩ : BufTy).Contents (Elt F) → (⟨S1700000, .i32⟩ : BufTy).Contents (Elt F)),
    StableHlo.binary main_v15 main_v29 main_v30 (addi : (⟨S1700000, .i32⟩ : BufTy).Contents (Elt F) → (⟨S1700000, .i32⟩ : BufTy).Contents (Elt F) → (⟨S1700000, .i32⟩ : BufTy).Contents (Elt F)),
    StableHlo.ternary main_v28 main_v30 main_v15 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v31 main_v32 (broadcastInDim S1700000x1 ![0] bcast_S1700000_S1700000x1_0 : (⟨S1700000, .i32⟩ : BufTy).Contents (Elt F) → (⟨S1700000x1, .i32⟩ : BufTy).Contents (Elt F)),
    StableHlo.binary main_v26 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v34 (broadcastInDim S1700000 ![] bcast_S_S1700000 : (⟨S_, .i32⟩ : BufTy).Contents (Elt F) → (⟨S1700000, .i32⟩ : BufTy).Contents (Elt F)),
    StableHlo.binary main_v18 main_v34 main_v35 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v36 (broadcastInDim S1700000 ![] bcast_S_S1700000 : (⟨S_, .i32⟩ : BufTy).Contents (Elt F) → (⟨S1700000, .i32⟩ : BufTy).Contents (Elt F)),
    StableHlo.binary main_v18 main_v36 main_v37 (addi : (⟨S1700000, .i32⟩ : BufTy).Contents (Elt F) → (⟨S1700000, .i32⟩ : BufTy).Contents (Elt F) → (⟨S1700000, .i32⟩ : BufTy).Contents (Elt F)),
    StableHlo.ternary main_v35 main_v37 main_v18 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v38 main_v39 (broadcastInDim S1700000x1 ![0] bcast_S1700000_S1700000x1_0 : (⟨S1700000, .i32⟩ : BufTy).Contents (Elt F) → (⟨S1700000x1, .i32⟩ : BufTy).Contents (Elt F)),
    StableHlo.binary main_v26 main_v39 main_v40 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v33 main_v40 main_v41 (mulf : (⟨S1700000, .f32⟩ : BufTy).Contents (Elt F) → (⟨S1700000, .f32⟩ : BufTy).Contents (Elt F) → (⟨S1700000, .f32⟩ : BufTy).Contents (Elt F)),
    StableHlo.nullary main_c_6 (constantI S_ 32 0#32),
    StableHlo.unary main_c_6 main_v42 (broadcastInDim S1700000 ![] bcast_S_S1700000 : (⟨S_, .i32⟩ : BufTy).Contents (Elt F) → (⟨S1700000, .i32⟩ : BufTy).Contents (Elt F)),
    StableHlo.binary main_v15 main_v42 main_v43 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v44 (broadcastInDim S1700000 ![] bcast_S_S1700000 : (⟨S_, .i32⟩ : BufTy).Contents (Elt F) → (⟨S1700000, .i32⟩ : BufTy).Contents (Elt F)),
    StableHlo.binary main_v15 main_v44 main_v45 (addi : (⟨S1700000, .i32⟩ : BufTy).Contents (Elt F) → (⟨S1700000, .i32⟩ : BufTy).Contents (Elt F) → (⟨S1700000, .i32⟩ : BufTy).Contents (Elt F)),
    StableHlo.ternary main_v43 main_v45 main_v15 main_v46 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v46 main_v47 (broadcastInDim S1700000x1 ![0] bcast_S1700000_S1700000x1_0 : (⟨S1700000, .i32⟩ : BufTy).Contents (Elt F) → (⟨S1700000x1, .i32⟩ : BufTy).Contents (Elt F)),
    StableHlo.binary main_v11 main_v47 main_v48 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v41 main_v49 (broadcastInDim S1700000x1 ![0] bcast_S1700000_S1700000x1_0 : (⟨S1700000, .f32⟩ : BufTy).Contents (Elt F) → (⟨S1700000x1, .f32⟩ : BufTy).Contents (Elt F)),
    StableHlo.unary main_v49 main_v50 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v48 main_v50 main_v51 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v52 (broadcastInDim S100000x128 ![] bcast_S_S100000x128 : (⟨S_, .f32⟩ : BufTy).Contents (Elt F) → (⟨S100000x128, .f32⟩ : BufTy).Contents (Elt F)),
    StableHlo.unary main_v18 main_v53 (broadcastInDim S1700000x1 ![0] bcast_S1700000_S1700000x1_0 : (⟨S1700000, .i32⟩ : BufTy).Contents (Elt F) → (⟨S1700000x1, .i32⟩ : BufTy).Contents (Elt F)),
    StableHlo.ternary main_v52 main_v53 main_v51 main_v54 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg8 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v56 main_v57 (addf : (⟨S100000x128, .f32⟩ : BufTy).Contents (Elt F) → (⟨S100000x128, .f32⟩ : BufTy).Contents (Elt F) → (⟨S100000x128, .f32⟩ : BufTy).Contents (Elt F)),
    StableHlo.binary main_v9 main_v57 main_v58 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v58 main_arg9 main_v59 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg10 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v61 main_v62 (addf : (⟨S100000x128, .f32⟩ : BufTy).Contents (Elt F) → (⟨S100000x128, .f32⟩ : BufTy).Contents (Elt F) → (⟨S100000x128, .f32⟩ : BufTy).Contents (Elt F)),
    -- the activation of the output layer (%63)
    StableHlo.TRef.nullary main_call3.cst (constant S_ .f32 0x00000000#32),
    StableHlo.TRef.unary main_call3.cst main_call3.v0 (broadcastInDim S100000x128 ![] bcast_S_S100000x128),
    StableHlo.TRef.binary (.of main_v62) main_call3.v0 main_call3.v1 (cmpf .ogt),
    StableHlo.TRef.nullary main_call3.cst_0 (constant S_ .f32 0x00000000#32),
    StableHlo.TRef.unary main_call3.cst_0 main_call3.v2 (broadcastInDim S100000x128 ![] bcast_S_S100000x128),
    StableHlo.TRef.binary (.of main_v62) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x128 ![] bcast_S_S100000x128),
    StableHlo.TRef.ternary main_call3.v3 main_call3.call0.v1 (.of main_v62) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x128 ![] bcast_S_S100000x128),
    StableHlo.TRef.binary main_call3.v6 main_call3.v5 main_call3.v7 mulf,
    StableHlo.TRef.ternary main_call3.v1 (.of main_v62) main_call3.v7 main_call3.call1.v0 select ]

-- one hundred and twenty binds re-associated: the rewrite under the chain recurses once per statement
set_option maxRecDepth 8192 in
set_option maxHeartbeats 4000000 in
/-- @main is that straight line: its two windows and the functions' definitions unfolded at their calls, both sides
    are one chain of steps once sequencing is reassociated. -/
theorem main_eq (c : Dev nD) : main (F := F) c = seq ops := by
  simp only [main, main_part0, main_part1, fn_elu.body, fn_where.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    binary_bufs_sub .., binary_bufs_sub .., nullary_bufs_sub .., unary_bufs_sub .., reshape_bufs_sub .., binary_bufs_sub ..,
    unary_bufs_sub .., reshape_bufs_sub .., binary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., nullary_bufs_sub ..,
    unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    binary_bufs_sub ..,
    nullary_bufs_sub .., unary_bufs_sub .., binary_bufs_sub .., nullary_bufs_sub .., unary_bufs_sub .., binary_bufs_sub ..,
    ternary_bufs_sub .., unary_bufs_sub .., binary_bufs_sub ..,
    unary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub .., binary_bufs_sub .., unary_bufs_sub ..,
    unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-! ## The values, as terms of the arguments

Each stage of the reference as a function of the argument arrays, composed of exactly the printed operations (same
operation, same literal, same evidence), nothing simplified: the multiplication by the broadcast one, the conversion
of a scalar to its own type (the identity) and both comparisons of the activation are kept as the program has them. -/

/-- The activation, the fifteen operations of one call composed: the argument where it is positive, and elsewhere one
    times the exponential minus one of (zero where the argument is positive, the argument elsewhere). -/
def eluTerm (x : FVec F S100000x128 .f32) : FVec F S100000x128 .f32 :=
  select (cmpf .ogt x (broadcastInDim S100000x128 ![] bcast_S_S100000x128 (constant (F := F) S_ .f32 0x00000000#32)))
    x
    (mulf (broadcastInDim S100000x128 ![] bcast_S_S100000x128 (constant (F := F) S_ .f32 0x3F800000#32))
      (Host.expm1
        (select (cmpf .ogt x (broadcastInDim S100000x128 ![] bcast_S_S100000x128 (constant (F := F) S_ .f32 0x00000000#32)))
          (broadcastInDim S100000x128 ![] bcast_S_S100000x128 (id (constant (F := F) S_ .f32 0x00000000#32)))
          x)))

/-- A bias row spread over the hundred thousand rows: first to one row of 128, then down the rows. -/
def biasTerm (b : FVec F S128 .f32) : FVec F S100000x128 .f32 :=
  broadcastInDim S100000x128 ![0, 1] bcast_S1x128_S100000x128_0_1 (broadcastInDim S1x128 ![1] bcast_S128_S1x128_1 b)

/-- The first dense layer: the activation of the input times the first weight plus its bias. -/
def hidTerm (a0 : FVec F S100000x64 .f32) (a3 : FVec F S64x128 .f32) (a4 : FVec F S128 .f32) : FVec F S100000x128 .f32 :=
  eluTerm (addf (Host.dotGeneral dot_S100000x64_S64x128_S100000x128_1_0_0_1_n_n none a0 a3) (biasTerm a4))

/-- The node features: the second dense layer over the first. -/
def nfTerm (a0 : FVec F S100000x64 .f32) (a3 : FVec F S64x128 .f32) (a4 : FVec F S128 .f32) (a5 : FVec F S128x128 .f32)
    (a6 : FVec F S128 .f32) : FVec F S100000x128 .f32 :=
  eluTerm (addf (Host.dotGeneral dot_S100000x128_S128x128_S100000x128_1_0_0_1_n_n none (hidTerm a0 a3 a4) a5) (biasTerm a6))

/-- The node features joined with the input along the columns, times the convolution weight. -/
def xlinTerm (a0 : FVec F S100000x64 .f32) (a3 : FVec F S64x128 .f32) (a4 : FVec F S128 .f32) (a5 : FVec F S128x128 .f32)
    (a6 : FVec F S128 .f32) (a7 : FVec F S192x128 .f32) : FVec F S100000x128 .f32 :=
  Host.dotGeneral dot_S100000x192_S192x128_S100000x128_1_0_0_1_n_n none
    (concatenate S100000x192 1 [⟨S100000x128, nfTerm a0 a3 a4 a5 a6⟩, ⟨S100000x64, a0⟩] concatenates_S100000x128_S100000x64_S100000x192_d1)
    a7

/-- The source column: row 0 of the edge table as a vector, followed by every node's own number. -/
def srcTerm (a1 : IVec S2x1600000 32) : IVec S1700000 32 :=
  concatenate S1700000 0
    [⟨S1600000, shapeCast S1600000 (extractStridedSlice S1x1600000 ![0, 0] a1 slices_S2x1600000_S1x1600000_0_0) shapeCasts_S1x1600000_S1600000⟩,
     ⟨S100000, iotaInDim S100000 32 0⟩]
    concatenates_S1600000_S100000_S1700000_d0

/-- The destination column: row 1 of the edge table as a vector, followed by every node's own number. -/
def dstTerm (a1 : IVec S2x1600000 32) : IVec S1700000 32 :=
  concatenate S1700000 0
    [⟨S1600000, shapeCast S1600000 (extractStridedSlice S1x1600000 ![1, 0] a1 slices_S2x1600000_S1x1600000_1_0) shapeCasts_S1x1600000_S1600000⟩,
     ⟨S100000, iotaInDim S100000 32 0⟩]
    concatenates_S1600000_S100000_S1700000_d0

/-- An index column with negative entries wrapped: the entry plus one hundred thousand where it is below zero. -/
def wrapTerm (i : IVec S1700000 32) : IVec S1700000 32 :=
  select (cmpi .slt i (broadcastInDim S1700000 ![] bcast_S_S1700000 (constantI S_ 32 0#32)))
    (addi i (broadcastInDim S1700000 ![] bcast_S_S1700000 (constantI S_ 32 100000#32)))
    i

/-- A vector over the edges as a one-column table. -/
def colTerm {α : Type} (v : S1700000.Idx → α) : S1700000x1.Idx → α :=
  broadcastInDim S1700000x1 ![0] bcast_S1700000_S1700000x1_0 v

/-- The degrees: ones accumulated into zeros at the destination column. -/
def degTerm (a1 : IVec S2x1600000 32) : FVec F S100000 .f32 :=
  Host.scatterAdd scatter_S100000_S1700000x1_S1700000_n_0_0_1
    (broadcastInDim S100000 ![] bcast_S_S100000 (constant (F := F) S_ .f32 0x00000000#32))
    (colTerm (dstTerm a1))
    (broadcastInDim S1700000 ![] bcast_S_S1700000 (constant (F := F) S_ .f32 0x3F800000#32))

/-- The normalizers: the reciprocal square root of the degree where it is positive, zero elsewhere. -/
def dinvTerm (a1 : IVec S2x1600000 32) : FVec F S100000 .f32 :=
  select (cmpf .ogt (degTerm (F := F) a1) (broadcastInDim S100000 ![] bcast_S_S100000 (constant (F := F) S_ .f32 0x00000000#32)))
    (Host.rsqrt (degTerm (F := F) a1))
    (broadcastInDim S100000 ![] bcast_S_S100000 (id (constant (F := F) S_ .f32 0x00000000#32)))

/-- The edge weights: the normalizer at the (wrapped) source times the normalizer at the (wrapped) destination. -/
def normTerm (a1 : IVec S2x1600000 32) : FVec F S1700000 .f32 :=
  mulf (Host.gather gather_S100000_S1700000x1_S1700000_n_0_n_n_0_1_1 (dinvTerm (F := F) a1) (colTerm (wrapTerm (srcTerm a1))))
    (Host.gather gather_S100000_S1700000x1_S1700000_n_0_n_n_0_1_1 (dinvTerm (F := F) a1) (colTerm (wrapTerm (dstTerm a1))))

/-- The messages: the rows of the multiplied features gathered at the (wrapped) source, each scaled by its edge's weight. -/
def msgTerm (a0 : FVec F S100000x64 .f32) (a1 : IVec S2x1600000 32) (a3 : FVec F S64x128 .f32) (a4 : FVec F S128 .f32)
    (a5 : FVec F S128x128 .f32) (a6 : FVec F S128 .f32) (a7 : FVec F S192x128 .f32) : FVec F S1700000x128 .f32 :=
  mulf (Host.gather gather_S100000x128_S1700000x1_S1700000x128_1_0_n_n_0_1_1128 (xlinTerm a0 a3 a4 a5 a6 a7) (colTerm (wrapTerm (srcTerm a1))))
    (broadcastInDim S1700000x128 ![0, 1] bcast_S1700000x1_S1700000x128_0_1 (colTerm (normTerm (F := F) a1)))

/-- The aggregation: the messages accumulated into zeros at the destination column. -/
def aggTerm (a0 : FVec F S100000x64 .f32) (a1 : IVec S2x1600000 32) (a3 : FVec F S64x128 .f32) (a4 : FVec F S128 .f32)
    (a5 : FVec F S128x128 .f32) (a6 : FVec F S128 .f32) (a7 : FVec F S192x128 .f32) : FVec F S100000x128 .f32 :=
  Host.scatterAdd scatter_S100000x128_S1700000x1_S1700000x128_1_0_0_1
    (broadcastInDim S100000x128 ![] bcast_S_S100000x128 (constant (F := F) S_ .f32 0x00000000#32))
    (colTerm (dstTerm a1))
    (msgTerm a0 a1 a3 a4 a5 a6 a7)

/-- The result: the activation of (the node features joined with the aggregation plus its bias) times the last weight
    plus the last bias. -/
def resultTerm (a0 : FVec F S100000x64 .f32) (a1 : IVec S2x1600000 32) (a3 : FVec F S64x128 .f32) (a4 : FVec F S128 .f32)
    (a5 : FVec F S128x128 .f32) (a6 : FVec F S128 .f32) (a7 : FVec F S192x128 .f32) (a8 : FVec F S128 .f32)
    (a9 : FVec F S256x128 .f32) (a10 : FVec F S128 .f32) : FVec F S100000x128 .f32 :=
  eluTerm (addf
    (Host.dotGeneral dot_S100000x256_S256x128_S100000x128_1_0_0_1_n_n none
      (concatenate S100000x256 1
        [⟨S100000x128, nfTerm a0 a3 a4 a5 a6⟩, ⟨S100000x128, addf (aggTerm a0 a1 a3 a4 a5 a6 a7) (biasTerm a8)⟩]
        concatenates_S100000x128_S100000x128_S100000x256_d1)
      a9)
    (biasTerm a10))

/-! ## The run -/

attribute [local irreducible] Host.gather Host.scatterAdd Host.expm1 Host.rsqrt concatenate select mulf addf cmpf cmpi addi broadcastInDim constant constantI iotaInDim extractStridedSlice shapeCast in
set_option maxRecDepth 16384 in
set_option maxHeartbeats 4000000 in
/-- The result buffer after the operations, from any contents: the composed term of the arguments' contents. Each
    operation's result at its own buffer is its function's value and at any other buffer what was there; the typed
    references' transports are the identity at these literal references; what is left is the definitions above
    unfolded. The sums, searches and transcendental functions are kept folded meanwhile: the equation never looks
    inside them. -/
theorem result_eq (V : Valuation τ sig (Elt F)) :
    after ops V (main_v63 : DevRef τ sig)
      = resultTerm (V (main_arg0 : DevRef τ sig)) (V (main_arg1 : DevRef τ sig)) (V (main_arg3 : DevRef τ sig))
          (V (main_arg4 : DevRef τ sig)) (V (main_arg5 : DevRef τ sig)) (V (main_arg6 : DevRef τ sig))
          (V (main_arg7 : DevRef τ sig)) (V (main_arg8 : DevRef τ sig)) (V (main_arg9 : DevRef τ sig))
          (V (main_arg10 : DevRef τ sig)) := by
  after_results_simp
  rfl

set_option maxHeartbeats 4000000 in
/-- No operation writes an argument's buffer: after the run each holds what it held. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig) := by
  refine ⟨?_, ?_, ?_, ?_, ?_, ?_, ?_, ?_, ?_, ?_, ?_⟩ <;> after_results_simp

/-- On every device, for any float values, from any memory with zero counters: every weakly fair execution of
    @main terminates with the result buffer at the composed term of the arguments' launch contents and every
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63)
        = resultTerm (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      have A := args_eq (F := F) (launchContents m c)
      ⟨(h c main_v63).trans (result_eq (launchContents m c)),
        (h c main_arg0).trans A.1, (h c main_arg1).trans A.2.1, (h c main_arg2).trans A.2.2.1,
        (h c main_arg3).trans A.2.2.2.1, (h c main_arg4).trans A.2.2.2.2.1, (h c main_arg5).trans A.2.2.2.2.2.1,
        (h c main_arg6).trans A.2.2.2.2.2.2.1, (h c main_arg7).trans A.2.2.2.2.2.2.2.1,
        (h c main_arg8).trans A.2.2.2.2.2.2.2.2.1, (h c main_arg9).trans A.2.2.2.2.2.2.2.2.2.1,
        (h c main_arg10).trans A.2.2.2.2.2.2.2.2.2.2⟩)
    (run_seq scopedRefs_eq scopedSems_eq defs main (fun _ => ops) main_eq (fun _ => ops_sub) m ρ)

end Cert.ReferenceIdeal.RefRun

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.LibHostDense.lean ====
/-
  A dense layer in the host's spelling, read one entry at a time at the exact (extended-real) values.

  On the host a dense layer on all M rows at once is the M×K by K×N product (a dot_general contracting the left
  operand's columns with the right operand's rows) plus the length-N bias placed along the columns of a 1×N row and
  then spread over the M rows.  Entry (p, q) is the layer applied to row p, at q:  (row p · W)(q) + b(q).  Stated once
  for every M, K, N, under any dimension record equal to the plain one.
-/
import Idealize.ShloMosaic.Lib.ValueIdx
import Idealize.ShloMosaic.PureOps.Ideal.Laws
import proofs.«102481_j71545565216996_2_alg».proof.Proof.LibRowDot
import proofs.«102481_j71545565216996_2_alg».proof.Proof.LibDense
import proofs.«102481_j71545565216996_2_alg».proof.Proof.LibRowBias

noncomputable section

namespace Cert.HostDense

open Idealize.ShloMosaic Idealize.ShloMosaic.ValueIdx Cert.RowDot Cert.Dense

/-- The host's product at entry (p, q), under a dimension record equal to the plain one: row p times W, at q. -/
theorem hostDot_apply {M K N : Nat} {φ₁ φ₂ : FTy} (D : DotDims (⟨2, ![M, K]⟩ : Shape) ⟨2, ![K, N]⟩ ⟨2, ![M, N]⟩)
    (hD : D = DotDims.plain M K N) (l : FVec Ideal (⟨2, ![M, K]⟩ : Shape) φ₁) (r : FVec Ideal (⟨2, ![K, N]⟩ : Shape) φ₂)
    (p : Fin M) (q : Fin N) :
    Host.dotGeneral D none l r (ix2 p q) = rowDot (rowOf l p) r q := by
  subst hD
  exact dotGeneral_plain_apply none .single l r (ix2 p q)

/-- The length-N bias placed along a 1×N row and spread over M rows reads, at (p, q), the bias at q. -/
theorem hostBias_apply {M N : Nat} {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) :=
  (Cert.RowBias.spreadRowInDim_apply _ h2 (ix2 p q)).trans (Cert.RowBias.rowInDim_apply b h1 q)

/-- The host's dense layer at entry (p, q): the layer applied to row p, at q. -/
theorem hostDense_apply {M K N : Nat} {φ₁ φ₂ : FTy} (D : DotDims (⟨2, ![M, K]⟩ : Shape) ⟨2, ![K, N]⟩ ⟨2, ![M, N]⟩)
    (hD : D = DotDims.plain M K N) (l : FVec Ideal (⟨2, ![M, K]⟩ : Shape) φ₁) (r : FVec Ideal (⟨2, ![K, N]⟩ : Shape) φ₂)
    (b : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral D none l r) (broadcastInDim ⟨2, ![M, N]⟩ ![0, 1] h2 (broadcastInDim ⟨2, ![1, N]⟩ ![1] h1 b)) (ix2 p q)
      = dense r (biasVec b) (rowOf l p) q := by
  show Host.dotGeneral D none l r (ix2 p q)
      + broadcastInDim ⟨2, ![M, N]⟩ ![0, 1] h2 (broadcastInDim ⟨2, ![1, N]⟩ ![1] h1 b) (ix2 p q) = _
  rw [hostDot_apply D hD, hostBias_apply]
  rfl

/-- A length-M vector kept as an M×1 column and spread over C columns reads, at (e, k), the vector at e. -/
theorem hostColumn_apply {M C : Nat} {α : Type} (v : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, C]⟩ ![0, 1]) (e : Fin M) (k : Fin C) :
    broadcastInDim ⟨2, ![M, C]⟩ ![0, 1] h2 (broadcastInDim ⟨2, ![M, 1]⟩ ![0] h1 v) (ix2 e k) = v (ix1 e) := by
  refine (broadcastInDim_apply ![0, 1] h2 _ (ix2 e k) (ix2 e (0 : Fin 1)) (fun a => ?_)).trans
    (broadcastInDim_apply ![0] h1 v (ix2 e (0 : Fin 1)) (ix1 e) (fun a => ?_))
  · match a with
    | ⟨0, _⟩ =>
      show e.val = if M = 1 then 0 else e.val
      split
      · have := e.isLt; omega
      · rfl
    | ⟨1, _⟩ => rfl
  · match a with
    | ⟨0, _⟩ =>
      show e.val = if M = 1 then 0 else e.val
      split
      · have := e.isLt; omega
      · rfl

end Cert.HostDense

end
-- ==== Proof.RefValue.lean ====
/-
  The reference's result, read one entry at a time at the exact (extended-real) values.

  Each stage of the reference's composed term is read at explicit coordinates: the activation at an entry is elu of
  the entry; a dense layer at (n, q) is the layer applied to row n, at q; the joined array times the convolution weight
  at (r, k) is the graph layer's linear map on node r, at k; the degree at n counts the edges that end at n, and the
  normalizer is its guarded inverse square root; an edge's weight is the normalizer at its source node times the
  normalizer at its destination node; the message of edge e at column k is the linear map's row of the source node
  scaled by the edge's weight; the aggregation at (n, k) is the sum of the messages of the edges that end at n.  The
  result is then the layer with both normalizers applied to every term of the sum.

-/
import proofs.«102481_j71545565216996_2_alg».proof.Proof.RefRun
import proofs.«102481_j71545565216996_2_alg».proof.Proof.Graph
import proofs.«102481_j71545565216996_2_alg».proof.Proof.LibHostDense
import proofs.«102481_j71545565216996_2_alg».proof.Proof.LibCatCols
import proofs.«102481_j71545565216996_2_alg».proof.Proof.LibGraphSum

set_option maxRecDepth 16384

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.GCN Cert.RowDot Cert.Dense

/-- The activation at an entry is elu of the entry: the program's guarded spelling (the exponential taken at zero
    where the entry is positive, the branch multiplied by one) is elu. -/
theorem eluTerm_apply (x : FVec Ideal S100000x128 .f32) (i : S100000x128.Idx) : eluTerm (F := Ideal) x i = elu1 (x i) :=
  elu1_guarded (x i)

/-- The first dense layer at (n, q): the layer and elu on row n of the input, at q. -/
theorem hidTerm_apply (a0 : FVec Ideal S100000x64 .f32) (a3 : FVec Ideal S64x128 .f32) (a4 : FVec Ideal S128 .f32)
    (n : Fin 100000) (q : Fin 128) :
    hidTerm (F := Ideal) a0 a3 a4 (ix2 n q) = eluRow (dense a3 (biasVec a4) (rowOf a0 n)) q := by
  unfold hidTerm biasTerm
  rw [eluTerm_apply]
  exact congrArg elu1 (Cert.HostDense.hostDense_apply dot_S100000x64_S64x128_S100000x128_1_0_0_1_n_n rfl a0 a3 a4
    bcast_S128_S1x128_1 bcast_S1x128_S100000x128_0_1 n q)

/-- The node features at (n, q): the perceptron on row n of the input, at q. -/
theorem nfTerm_apply (a0 : FVec Ideal S100000x64 .f32) (a3 : FVec Ideal S64x128 .f32) (a4 : FVec Ideal S128 .f32)
    (a5 : FVec Ideal S128x128 .f32) (a6 : FVec Ideal S128 .f32) (n : Fin 100000) (q : Fin 128) :
    nfTerm (F := Ideal) a0 a3 a4 a5 a6 (ix2 n q) = nfRow a3 (biasVec a4) a5 (biasVec a6) (rowOf a0 n) q := by
  unfold nfTerm biasTerm
  rw [eluTerm_apply]
  unfold nfRow eluRow
  refine congrArg elu1 ?_
  refine (Cert.HostDense.hostDense_apply dot_S100000x128_S128x128_S100000x128_1_0_0_1_n_n rfl (hidTerm (F := Ideal) a0 a3 a4) a5 a6
    bcast_S128_S1x128_1 bcast_S1x128_S100000x128_0_1 n q).trans ?_
  refine congrArg (fun r : Fin 128 → EReal => dense a5 (biasVec a6) r q) (funext fun k => ?_)
  exact hidTerm_apply a0 a3 a4 n k

/-- The joined array times the convolution weight at (r, k): the graph layer's linear map on node r, at k. -/
theorem xlinTerm_apply (a0 : FVec Ideal S100000x64 .f32) (a3 : FVec Ideal S64x128 .f32) (a4 : FVec Ideal S128 .f32)
    (a5 : FVec Ideal S128x128 .f32) (a6 : FVec Ideal S128 .f32) (a7 : FVec Ideal S192x128 .f32) (r : Fin 100000) (k : Fin 128) :
    xlinTerm (F := Ideal) a0 a3 a4 a5 a6 a7 (ix2 r k) = xlAt a0 a3 (biasVec a4) a5 (biasVec a6) a7 r k := by
  unfold xlinTerm
  refine (Cert.HostDense.hostDot_apply dot_S100000x192_S192x128_S100000x128_1_0_0_1_n_n rfl _ a7 r k).trans ?_
  unfold xlAt xlRow rowDot
  refine Finset.sum_congr rfl fun j _ => ?_
  refine congrArg (fun a : EReal => a * a7 (ix2 j k)) ?_
  refine (Cert.CatCols.cat_cols_apply (nfTerm (F := Ideal) a0 a3 a4 a5 a6) a0 concatenates_S100000x128_S100000x64_S100000x192_d1 rfl r j).trans ?_
  unfold catRow
  split
  · next hj => exact nfTerm_apply a0 a3 a4 a5 a6 r ⟨j.val, hj⟩
  · rfl

/-- A product of two arrays at an entry: the product of the entries (over variable arrays, so that nothing under them
    is ever opened). -/
theorem mulf_apply {S : Shape} (x y : FVec Ideal S .f32) (i : S.Idx) : mulf x y i = x i * y i := rfl

/-- A sum of two arrays at an entry: the sum of the entries. -/
theorem addf_apply {S : Shape} (x y : FVec Ideal S .f32) (i : S.Idx) : addf x y i = x i + y i := rfl

/-- Two arrays laid side by side, at (p, k), when row p of each is known: the two rows laid end to end, at k. -/
theorem catRows_apply {M A B : Nat} (C : Nat) (hC : C = A + B) (x₁ : (⟨2, ![M, A]⟩ : Shape).Idx → EReal)
    (x₂ : (⟨2, ![M, B]⟩ : Shape).Idx → EReal)
    (h : Shape.Concatenates [(⟨2, ![M, A]⟩ : Shape), ⟨2, ![M, B]⟩] ⟨2, ![M, C]⟩ 1) (p : Fin M) (k : Fin C)
    (u : Fin A → EReal) (v : Fin B → EReal) (hu : ∀ a, x₁ (ix2 p a) = u a) (hv : ∀ b, x₂ (ix2 p b) = v b) :
    concatenate ⟨2, ![M, C]⟩ 1 [⟨⟨2, ![M, A]⟩, x₁⟩, ⟨⟨2, ![M, B]⟩, x₂⟩] h (ix2 p k) = catRow C hC u v k := by
  refine (Cert.CatCols.cat_cols_apply x₁ x₂ h hC p k).trans ?_
  unfold catRow
  split
  · exact hu _
  · exact hv _

/-- A vector over the edges kept as a one-column table, at (e, 0): the vector at e. -/
theorem colTerm_apply {α : Type} (x : S1700000.Idx → α) (e : Fin 1700000) : colTerm x (ix2 e (0 : Fin 1)) = x (ix1 e) :=
  Cert.GraphSum.column_apply bcast_S1700000_S1700000x1_0 x e

/-- The wrapped words, one at a time. -/
theorem wrapTerm_apply (x : IVec S1700000 32) (e : Fin 1700000) : wrapTerm x (ix1 e) = wrapW (x (ix1 e)) := rfl

/-- The row a gather reads for edge e from the wrapped column of x — the start word read signed and clamped — is the
    node the word x(e) selects (over a variable column x, so that nothing under it is ever opened). -/
theorem node_val_eq (x : IVec S1700000 32) (e : Fin 1700000) :
    min (colTerm (wrapTerm x) (ix2 e (0 : Fin 1))).toInt.toNat (100000 - 1) = (nodeOf (wrapW (x (ix1 e)))).val :=
  congrArg (fun w : BitVec 32 => min w.toInt.toNat (100000 - 1)) ((colTerm_apply (wrapTerm x) e).trans (wrapTerm_apply x e))

/-- A function of the node, at the row a gather reads for edge e from the wrapped column of x: the function at the node
    the word x(e) selects (again over a variable column). -/
theorem gatherRow_eq {β : Type} (f : Fin 100000 → β) (x : IVec S1700000 32) (e : Fin 1700000)
    (pf : min (colTerm (wrapTerm x) (ix2 e (0 : Fin 1))).toInt.toNat (100000 - 1) < 100000) :
    f ⟨min (colTerm (wrapTerm x) (ix2 e (0 : Fin 1))).toInt.toNat (100000 - 1), pf⟩ = f (nodeOf (wrapW (x (ix1 e)))) :=
  congrArg f (Fin.ext (node_val_eq x e))

/-- The degree array at n counts the edges that end at n. -/
theorem degTerm_apply (a1 : IVec S2x1600000 32) (n : Fin 100000) : degTerm (F := Ideal) a1 (ix1 n) = deg (dstTerm a1) n := by
  unfold degTerm
  refine (Cert.GraphSum.hostCount_apply scatter_S100000_S1700000x1_S1700000_n_0_0_1_wf
    scatter_S100000_S1700000x1_S1700000_n_0_0_1 rfl bcast_S_S100000 bcast_S_S1700000 (colTerm (dstTerm a1)) n).trans ?_
  unfold deg
  refine congrArg (fun z : EReal => 0 + z) (Finset.sum_congr rfl fun e _ => ?_)
  unfold hit
  refine if_congr ?_ rfl rfl
  rw [colTerm_apply]

/-- The normalizer array at n is dinv(n). -/
theorem dinvTerm_apply (a1 : IVec S2x1600000 32) (n : Fin 100000) : dinvTerm (F := Ideal) a1 (ix1 n) = dinv (dstTerm a1) n := by
  unfold dinvTerm dinv
  refine (Cert.GraphSum.guardedRsqrt_apply bcast_S_S100000 (degTerm (F := Ideal) a1) (ix1 n)).trans ?_
  rw [degTerm_apply]

/-- An edge's weight: the normalizer at the node its source word selects times the normalizer at the node its
    destination word selects. -/
theorem normTerm_apply (a1 : IVec S2x1600000 32) (e : Fin 1700000) :
    normTerm (F := Ideal) a1 (ix1 e)
      = dinv (dstTerm a1) (srcNode (srcTerm a1) e) * dinv (dstTerm a1) (dstNode (dstTerm a1) e) := by
  unfold normTerm
  rw [mulf_apply]
  refine congrArg₂ (fun a b : EReal => a * b) ?_ ?_
  · refine (Cert.GraphSum.hostGatherEntries_apply (by decide) gather_S100000_S1700000x1_S1700000_n_0_n_n_0_1_1_wf
      gather_S100000_S1700000x1_S1700000_n_0_n_n_0_1_1 rfl (dinvTerm (F := Ideal) a1) (colTerm (wrapTerm (srcTerm a1))) e).trans ?_
    refine (gatherRow_eq (fun r => dinvTerm (F := Ideal) a1 (ix1 r)) (srcTerm a1) e _).trans ?_
    exact dinvTerm_apply a1 (srcNode (srcTerm a1) e)
  · refine (Cert.GraphSum.hostGatherEntries_apply (by decide) gather_S100000_S1700000x1_S1700000_n_0_n_n_0_1_1_wf
      gather_S100000_S1700000x1_S1700000_n_0_n_n_0_1_1 rfl (dinvTerm (F := Ideal) a1) (colTerm (wrapTerm (dstTerm a1))) e).trans ?_
    refine (gatherRow_eq (fun r => dinvTerm (F := Ideal) a1 (ix1 r)) (dstTerm a1) e _).trans ?_
    exact dinvTerm_apply a1 (dstNode (dstTerm a1) e)

/-- The message of edge e at column k: the linear map's row of the edge's source node, scaled by the edge's weight. -/
theorem msgTerm_apply (a0 : FVec Ideal S100000x64 .f32) (a1 : IVec S2x1600000 32) (a3 : FVec Ideal S64x128 .f32)
    (a4 : FVec Ideal S128 .f32) (a5 : FVec Ideal S128x128 .f32) (a6 : FVec Ideal S128 .f32) (a7 : FVec Ideal S192x128 .f32)
    (e : Fin 1700000) (k : Fin 128) :
    msgTerm (F := Ideal) a0 a1 a3 a4 a5 a6 a7 (ix2 e k)
      = xlAt a0 a3 (biasVec a4) a5 (biasVec a6) a7 (srcNode (srcTerm a1) e) k
        * (dinv (dstTerm a1) (srcNode (srcTerm a1) e) * dinv (dstTerm a1) (dstNode (dstTerm a1) e)) := by
  unfold msgTerm
  rw [mulf_apply]
  refine congrArg₂ (fun a b : EReal => a * b) ?_ ?_
  · refine (Cert.GraphSum.hostGatherRows_apply (by decide) gather_S100000x128_S1700000x1_S1700000x128_1_0_n_n_0_1_1128_wf
      gather_S100000x128_S1700000x1_S1700000x128_1_0_n_n_0_1_1128 rfl (xlinTerm (F := Ideal) a0 a3 a4 a5 a6 a7)
      (colTerm (wrapTerm (srcTerm a1))) e k).trans ?_
    refine (gatherRow_eq (fun r => xlinTerm (F := Ideal) a0 a3 a4 a5 a6 a7 (ix2 r k)) (srcTerm a1) e _).trans ?_
    exact xlinTerm_apply a0 a3 a4 a5 a6 a7 (srcNode (srcTerm a1) e) k
  · refine (Cert.HostDense.hostColumn_apply (normTerm (F := Ideal) a1) bcast_S1700000_S1700000x1_0
      bcast_S1700000x1_S1700000x128_0_1 e k).trans ?_
    exact normTerm_apply a1 e

/-- The aggregation at (n, k): the sum of the messages of the edges that end at n. -/
theorem aggTerm_apply (a0 : FVec Ideal S100000x64 .f32) (a1 : IVec S2x1600000 32) (a3 : FVec Ideal S64x128 .f32)
    (a4 : FVec Ideal S128 .f32) (a5 : FVec Ideal S128x128 .f32) (a6 : FVec Ideal S128 .f32) (a7 : FVec Ideal S192x128 .f32)
    (n : Fin 100000) (k : Fin 128) :
    aggTerm (F := Ideal) a0 a1 a3 a4 a5 a6 a7 (ix2 n k)
      = 0 + ∑ e : Fin 1700000, if hit (dstTerm a1) e n
          then xlAt a0 a3 (biasVec a4) a5 (biasVec a6) a7 (srcNode (srcTerm a1) e) k
            * (dinv (dstTerm a1) (srcNode (srcTerm a1) e) * dinv (dstTerm a1) (dstNode (dstTerm a1) e)) else 0 := by
  unfold aggTerm
  refine (Cert.GraphSum.hostSumRows_apply scatter_S100000x128_S1700000x1_S1700000x128_1_0_0_1_wf
    scatter_S100000x128_S1700000x1_S1700000x128_1_0_0_1 rfl bcast_S_S100000x128 (colTerm (dstTerm a1))
    (msgTerm (F := Ideal) a0 a1 a3 a4 a5 a6 a7) n k).trans ?_
  refine congrArg (fun z : EReal => 0 + z) (Finset.sum_congr rfl fun e _ => ?_)
  unfold hit
  refine if_congr ?_ (msgTerm_apply a0 a1 a3 a4 a5 a6 a7 e k) rfl
  rw [colTerm_apply]

/-- The aggregated row n plus its bias, at k. -/
theorem gc_at (a0 : FVec Ideal S100000x64 .f32) (a1 : IVec S2x1600000 32) (a3 : FVec Ideal S64x128 .f32)
    (a4 : FVec Ideal S128 .f32) (a5 : FVec Ideal S128x128 .f32) (a6 : FVec Ideal S128 .f32) (a7 : FVec Ideal S192x128 .f32)
    (a8 : FVec Ideal S128 .f32) (n : Fin 100000) (k : Fin 128) :
    addf (aggTerm (F := Ideal) a0 a1 a3 a4 a5 a6 a7) (biasTerm (F := Ideal) a8) (ix2 n k)
      = gcEach (dstTerm a1) (srcTerm a1) a0 a3 (biasVec a4) a5 (biasVec a6) a7 (biasVec a8) n k := by
  rw [addf_apply, aggTerm_apply]
  unfold biasTerm
  rw [Cert.HostDense.hostBias_apply]
  rfl

/-- The result at (n, q): the combining layer on the perceptron's row n and the aggregated row n (both normalizers
    applied to every term) plus its bias, at q. -/
theorem result_at (a0 : FVec Ideal S100000x64 .f32) (a1 : IVec S2x1600000 32) (a3 : FVec Ideal S64x128 .f32)
    (a4 : FVec Ideal S128 .f32) (a5 : FVec Ideal S128x128 .f32) (a6 : FVec Ideal S128 .f32) (a7 : FVec Ideal S192x128 .f32)
    (a8 : FVec Ideal S128 .f32) (a9 : FVec Ideal S256x128 .f32) (a10 : FVec Ideal S128 .f32) (n : Fin 100000) (q : Fin 128) :
    resultTerm (F := Ideal) a0 a1 a3 a4 a5 a6 a7 a8 a9 a10 (ix2 n q)
      = outRow a9 (biasVec a10) (nfRow a3 (biasVec a4) a5 (biasVec a6) (rowOf a0 n))
          (gcEach (dstTerm a1) (srcTerm a1) a0 a3 (biasVec a4) a5 (biasVec a6) a7 (biasVec a8) n) q := by
  unfold resultTerm
  rw [eluTerm_apply]
  unfold outRow eluRow
  refine congrArg elu1 ?_
  refine (Cert.HostDense.hostDense_apply dot_S100000x256_S256x128_S100000x128_1_0_0_1_n_n rfl _ a9 a10
    bcast_S128_S1x128_1 bcast_S1x128_S100000x128_0_1 n q).trans ?_
  refine congrArg (fun r : Fin 256 → EReal => dense a9 (biasVec a10) r q) (funext fun k => ?_)
  exact catRows_apply 256 rfl (nfTerm (F := Ideal) a0 a3 a4 a5 a6)
    (addf (aggTerm (F := Ideal) a0 a1 a3 a4 a5 a6 a7) (biasTerm (F := Ideal) a8))
    concatenates_S100000x128_S100000x128_S100000x256_d1 n k _ _
    (fun a => nfTerm_apply a0 a3 a4 a5 a6 n a) (fun b => gc_at a0 a1 a3 a4 a5 a6 a7 a8 n b)

/-- THE REFERENCE'S RESULT is the layer with both normalizers applied to every term of the aggregated sum. -/
theorem result_apply (a0 : FVec Ideal S100000x64 .f32) (a1 : IVec S2x1600000 32) (a3 : FVec Ideal S64x128 .f32)
    (a4 : FVec Ideal S128 .f32) (a5 : FVec Ideal S128x128 .f32) (a6 : FVec Ideal S128 .f32) (a7 : FVec Ideal S192x128 .f32)
    (a8 : FVec Ideal S128 .f32) (a9 : FVec Ideal S256x128 .f32) (a10 : FVec Ideal S128 .f32) :
    resultTerm (F := Ideal) a0 a1 a3 a4 a5 a6 a7 a8 a9 a10
      = outScaledEach (dstTerm a1) (srcTerm a1) a0 a3 (biasVec a4) a5 (biasVec a6) a7 (biasVec a8) a9 (biasVec a10) := by
  funext i
  obtain ⟨n, q, rfl⟩ : ∃ (n : Fin 100000) (q : Fin 128), i = ix2 n q := ⟨i 0, i 1, eq_ix2 i⟩
  exact result_at a0 a1 a3 a4 a5 a6 a7 a8 a9 a10 n q

end Cert.ReferenceIdeal.RefValue

end
-- ==== Proof.lean ====
/-
  The certificate: a graph-convolution layer computed by two tiled kernels with the graph aggregation between them,
  against its one-piece reference, on the extended reals.

  Both programs compute, for every node n and output column q,
      out(n, q) = elu([nf(x_n), g_n]·Wc + bc)(q),   nf(x) = elu(elu(x·W1 + b1)·W2 + b2),
  where g_n aggregates over the edges that end at n the row xl = [nf(x), x]·Wgc of the edge's source node with the
  symmetric normalisation dinv(source)·dinv(n), plus a bias.  The reference scales every edge's row by
  dinv(source)·dinv(destination) before adding up; the kernel scales each node's row by dinv once before the
  aggregation and the accumulated sum by dinv(n) after it.  The two agree because dinv(n) — the inverse square root of a
  degree, or zero — is a nonnegative real, which distributes over a finite sum of extended reals, and because every edge
  that ends at n has destination n.  The perceptron, the products and the two spellings of elu (exp(a) − 1 against the
  guarded, unit-scaled exponential-minus-one) are the same functions row by row; rounding to bf16 changes no value here.

  The kernel's run is its generated frame read with the result buffer named; each tiled region's output array is
  the row function of the arrays the region found (its 20 blocks of 5000 rows cover the array); the host operations
  around the regions and the whole reference are read one operation at a time.  The precondition is not used: the
  only law that could fail at an infinity is the factor dinv(n), which is finite whatever the inputs.
-/
import proofs.«102481_j71545565216996_2_alg».proof.Defs
import proofs.«102481_j71545565216996_2_alg».proof.Proof.Gen.Kernel
import proofs.«102481_j71545565216996_2_alg».proof.Proof.Gen.Kernel.Frame
import proofs.«102481_j71545565216996_2_alg».proof.Proof.Gen.KernelIdeal
import proofs.«102481_j71545565216996_2_alg».proof.Proof.Gen.KernelIdeal.Frame
import proofs.«102481_j71545565216996_2_alg».proof.Proof.Gen.ReferenceIdeal
import proofs.«102481_j71545565216996_2_alg».proof.Proof.Gen.Pre_finite_inputs
import proofs.«102481_j71545565216996_2_alg».proof.Proof.KRun
import proofs.«102481_j71545565216996_2_alg».proof.Proof.KValue
import proofs.«102481_j71545565216996_2_alg».proof.Proof.RefRun
import proofs.«102481_j71545565216996_2_alg».proof.Proof.RefValue
import Idealize.ShloMosaic.Adequacy
import Idealize.ShloMosaic.Init

set_option maxRecDepth 16384

noncomputable section

namespace Cert.Proof

open Idealize.ShloMosaic Idealize.SL.Sem Cert.GCN Cert.Dense

/-- The two programs cut the edge list into the same destination words … -/
theorem dst_same (a1 : IVec Cert.KernelIdeal.S2x1600000 32) :
    Cert.ReferenceIdeal.RefRun.dstTerm a1 = Cert.KernelIdeal.Host.dstIdx a1 := by
  unfold Cert.ReferenceIdeal.RefRun.dstTerm Cert.KernelIdeal.Host.dstIdx
  rfl

/-- … and the same source words. -/
theorem src_same (a1 : IVec Cert.KernelIdeal.S2x1600000 32) :
    Cert.ReferenceIdeal.RefRun.srcTerm a1 = Cert.KernelIdeal.Host.srcIdx a1 := by
  unfold Cert.ReferenceIdeal.RefRun.srcTerm Cert.KernelIdeal.Host.srcIdx
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The layer's result as a function of the kernel's launch arrays, with the destination's factor applied after
    the aggregation (the kernel's order). -/
def layerOf (m : (ℓ : Loc Cert.KernelIdeal.nD Cert.KernelIdeal.τ Cert.KernelIdeal.sig) → Buf (Elt Ideal) ℓ)
    (c : Dev Cert.KernelIdeal.nD) : (⟨2, ![100000, 128]⟩ : Shape).Idx → EReal :=
  outScaledAfter (Cert.KernelIdeal.Host.dstIdx (m ((c.tc : Thread Cert.KernelIdeal.nD Cert.KernelIdeal.τ).loc Cert.KernelIdeal.main_arg1))) (Cert.KernelIdeal.Host.srcIdx (m ((c.tc : Thread Cert.KernelIdeal.nD Cert.KernelIdeal.τ).loc Cert.KernelIdeal.main_arg1)))
    (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (biasVec (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (biasVec (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (biasVec (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (biasVec (m ((c.tc : Thread Cert.KernelIdeal.nD Cert.KernelIdeal.τ).loc Cert.KernelIdeal.main_arg10)))

theorem algebraic : Cert.algebraic_KernelIdeal_ReferenceIdeal := by
  intro m ρ m' ρ' _ hagree
  refine ⟨fun c => layerOf m c, fun c => (m ((c.tc : Thread Cert.KernelIdeal.nD Cert.KernelIdeal.τ).loc Cert.KernelIdeal.main_arg1)), fun c => m ((c.tc : Thread Cert.KernelIdeal.nD Cert.KernelIdeal.τ).loc Cert.KernelIdeal.main_arg2), ?_, ?_⟩
  · refine (θ_run Cert.KernelIdeal.defs _ _).mono (fun r h c => ⟨(h c).1.trans ?_, (h c).2.2.1, (h c).2.2.2.1, (h c).2⟩)
      (Cert.KernelIdeal.Named.run (F := Ideal) m ρ)
    exact Cert.KernelIdeal.Value.result_eq m ρ c
  · refine (θ_run Cert.ReferenceIdeal.defs _ _).mono (fun r h c => ⟨(h c).1.trans ?_, (h c).2.2.1.trans (hagree c).2.1,
      (h c).2.2.2.1.trans (hagree c).2.2.1, (h c).2⟩) (Cert.ReferenceIdeal.RefRun.run (F := Ideal) m' ρ')
    obtain ⟨e0, e1, e2, e3, e4, e5, e6, e7, e8, e9, e10⟩ := hagree c
    rw [e0, e1, e3, e4, e5, e6, e7, e8, e9, e10, Cert.ReferenceIdeal.RefValue.result_apply, dst_same, src_same,
      ← outScaledAfter_eq_outScaledEach]
    rfl

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
